-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S256x4096 : Shape := ⟨2, ![256, 4096]⟩
abbrev S4096x256 : Shape := ⟨2, ![4096, 256]⟩
abbrev S256 : Shape := ⟨1, ![256]⟩
abbrev S256x1 : Shape := ⟨2, ![256, 1]⟩
abbrev S8192x4096 : Shape := ⟨2, ![8192, 4096]⟩
abbrev S1x4096 : Shape := ⟨2, ![1, 4096]⟩
abbrev S4096x1024 : Shape := ⟨2, ![4096, 1024]⟩
abbrev S1x1024 : Shape := ⟨2, ![1, 1024]⟩
abbrev S256x1024 : Shape := ⟨2, ![256, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x256, .bf16⟩
  | .local _ .vmem, ⟨3, _⟩ => ⟨S4096x256, .bf16⟩
  | .local _ .vmem, ⟨4, _⟩ => ⟨S256x4096, .f32⟩
  | .local _ .vmem, ⟨5, _⟩ => ⟨S256x4096, .f32⟩
  | .local _ .vmem, ⟨6, _⟩ => ⟨S4096x1024, .bf16⟩
  | .local _ .vmem, ⟨7, _⟩ => ⟨S4096x1024, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  transposes_S256x4096_p1_0_S4096x256 : S256x4096.Transposes [1, 0] S4096x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  shapeCasts_S4x2048x4096_S8192x4096 : S4x2048x4096.ShapeCasts S8192x4096
  shapeCasts_S4096_S1x4096 : S4096.ShapeCasts S1x4096
  shapeCasts_S256x4096_S256x4096 : S256x4096.ShapeCasts S256x4096
  packedbf16_S256x4096_S256x4096_0_0 : (Rect.unit (s := S256x4096) ![0, 0] S256x4096.size inb_S256x4096_S256x4096_0_0).PackedRows (EltTy.packing .bf16)
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S8192x4096_S4x2048x4096 : S8192x4096.ShapeCasts S4x2048x4096
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .bf16 = 32 ∨ (Rect.block (s := S4096x4096) S4096x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x4096.size a
  hwx1_1 : ∀ i : grid1.Coords, EltTy.bits .bf16 = 32 ∨ (Rect.block (s := S4096x4096) S4096x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S8192x4096.size a
  hwx1_3 : ∀ i : grid1.Coords, EltTy.bits .f32 = 32 ∨ (Rect.block (s := S8192x4096) S256x1024.size (cc1_transform_3 i) (hinb1_3 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4x2048x4096, .f32⟩
  | .hbm, ⟨26, _⟩ => ⟨S_, .f32⟩
  | .hbm, ⟨27, _⟩ => ⟨S4x2048, .f32⟩
  | .hbm, ⟨28, _⟩ => ⟨S4x2048x1, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S_, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x4096, .f32⟩
  | .hbm, ⟨37, _⟩ => ⟨S4x2048x4096, .f32⟩
  | .hbm, ⟨38, _⟩ => ⟨S4x2048x4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4x2048x4096, .f32⟩
  | .hbm, ⟨43, _⟩ => ⟨S4x2048x4096, .f32⟩
  | .hbm, ⟨44, _⟩ => ⟨S_, .f32⟩
  | .hbm, ⟨45, _⟩ => ⟨S4x2048x4096, .f32⟩
  | .hbm, ⟨46, _⟩ => ⟨S4x2048x4096, .f32⟩
  | .hbm, ⟨47, _⟩ => ⟨S4x2048x4096, .f32⟩
  | .hbm, ⟨48, _⟩ => ⟨S4x2048x4096, .f32⟩
  | .hbm, ⟨49, _⟩ => ⟨S4096x4096, .f32⟩
  | .hbm, ⟨50, _⟩ => ⟨S4096x4096, .f32⟩
  | .hbm, ⟨51, _⟩ => ⟨S4x2048x4096, .f32⟩
  | .hbm, ⟨52, _⟩ => ⟨S1x1x4096, .f32⟩
  | .hbm, ⟨53, _⟩ => ⟨S4x2048x4096, .f32⟩
  | .hbm, ⟨54, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_cst_3 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_cst_6 : Ref sig .tc := ⟨.hbm, 32, rfl⟩
abbrev main_call3_v0 : Ref sig .tc := ⟨.hbm, 33, rfl⟩
abbrev main_call3_v1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_7 : Ref sig .tc := ⟨.hbm, 39, rfl⟩
abbrev main_cst_8 : Ref sig .tc := ⟨.hbm, 40, rfl⟩
abbrev main_call5_v0 : Ref sig .tc := ⟨.hbm, 41, rfl⟩
abbrev main_call5_v1 : Ref sig .tc := ⟨.hbm, 42, rfl⟩
abbrev main_call5_v2 : Ref sig .tc := ⟨.hbm, 43, rfl⟩
abbrev main_call5_v3 : Ref sig .tc := ⟨.hbm, 44, rfl⟩
abbrev main_call5_v4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S4x2048x4096_S4x2048_d2 : S4x2048x4096.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.K.WeightRegion.lean ====
/-
  The weight-quantization region (the first pallas_call), at any float instance, from buffer contents `V` found at
  its entry.

  Its grid has 16 points. At point `t` the pipeline hands the body a block of 256 rows of the weight matrix
  (window 0: rows 256·t … 256·t+255, all 4096 columns) and a [4096, 256] staging buffer for the transposed,
  quantized block (window 1: columns 256·t … of the [4096, 4096] result). The body has ONE control case: it loads
  the input block whole, computes one value from it (the skeleton's `k0_pay1`) and stores it over the whole output
  buffer. So after the body the output buffer holds that value of the input block, whatever it held before, and the
  input buffer is unchanged; nothing is kept between points, and the region's invariant is the scoped rest and the
  generator register, untouched.

  Proved here: the body's triple on any whole staging memrefs, the pipeline's proof data (what each window's buffer
  holds after each point), and the body obligation at every point.
-/
import proofs.«106305_j798863917295_2_alg».proof.Proof.Gen.Kernel.Launch
import proofs.«106305_j798863917295_2_alg».proof.Proof.Gen.Kernel.Skeleton
import proofs.«106305_j798863917295_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def wblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem wbefore_in_of {c : Dev nD} (dat : Dat τ (Elt F) Unit ℕ (UR sig nD τ) ℕ cfg0 c) (hA : dat.A 0 = V c (Pipeline.arrRef spec0 0))
    (hafter : ∀ t, dat.after 0 t = wblk V c 0 t) (t : Fin cfg0.N) (d) : dat.before 0 t d = wblk V c 0 t :=
  (dat.before_in_eq_fetched 0 rfl (fun _ => rfl) (fun _ _ _ => rfl) (fun t => by rw [hafter]; unfold Dat.blockOf wblk; rw [hA]; try rfl) t d).trans
    (by unfold Dat.fetched Dat.blockOf wblk; rw [hA]; try rfl)

/-- The body's two whole-buffer rectangles. -/
abbrev rW_in : Rect S256x4096 := Rect.unit (s := S256x4096) ![0, 0] S256x4096.size inb_S256x4096_S256x4096_0_0
abbrev rW_out : Rect S4096x256 := Rect.unit (s := S4096x256) ![0, 0] S4096x256.size inb_S4096x256_S4096x256_0_0

/-- What the body leaves in the output window's buffer, from the input block: its one store. -/
def wout (x0 : Vec F S256x4096 .f32) : Vec F S4096x256 .bf16 :=
  View.canon [⟨rW_out, k0_pay1 (View.ld x0 rW_in)⟩]

/-- The one store covers the buffer. -/
theorem wcover (p0 : Vec F S4096x256 .bf16) (y : S4096x256.Idx) :
    ∃ pc ∈ ([⟨rW_out, p0⟩] : List (View.Piece (Elt F) S4096x256 .bf16)), y ∈ pc.1.set :=
  View.cover_of_tiled [⟨rW_out, p0⟩] S4096x256.size (by rfl) y

set_option maxHeartbeats 1000000 in
/-- The body on whole staging memrefs, the input's at contents `x0` and the output's at anything, runs to the
    continuation holding the input's as it was and the output's at `wout x0`. -/
theorem sound_wkernel (c : Dev nD) (E : Set ℕ) (i : grid0.Coords) (arg1 : Memref sig .tc .vmem S256x4096 .f32) (harg1 : arg1.IsWhole)
    (arg2 : Memref sig .tc .vmem S4096x256 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (wout x0)) -∗ K ⟨⟩))
      ⊢ wp frame (wpE (defs₀ (F := F)) Variants.none c none) E (cc0__weight_quant_kernel i arg1 harg1 arg2 harg2) K := by
  simp only [cc0__weight_quant_kernel_eq_skeleton]; unfold cc0__weight_quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (wcover _)

/-- The proof data of the region on core `c`: the arrays as found; after the body at point `t` the input's buffer
    at its block and the output's at `wout` of it; the invariant the scoped rest and the generator register;
    nothing owed; full shares. -/
def wdat (c : Dev nD) : Dat τ (Elt F) Unit ℕ (UR sig nD τ) ℕ cfg0 c where
  A w := V c (Pipeline.arrRef spec0 w)
  after w t := match w with
    | ⟨0, _⟩ => wblk V c 0 t
    | ⟨1, _⟩ => wout (wblk V c 0 t)
  Φ _ := Pipeline.ΦA spec0 c
  q _ := fullShare
  owed _ := 0

theorem wA_eq (c : Dev nD) (w : Fin cfg0.W) : (wdat V c).A w = V c (Pipeline.arrRef spec0 w) := by
  dsimp only [wdat]

theorem wafter_0 (c : Dev nD) (t : Fin cfg0.N) : (wdat V c).after 0 t = wblk V c 0 t := by dsimp only [wdat]
theorem wafter_1 (c : Dev nD) (t : Fin cfg0.N) : (wdat V c).after 1 t = wout (wblk V c 0 t) := by dsimp only [wdat]

theorem wbefore_0 (c : Dev nD) (t : Fin cfg0.N) (d) : (wdat V c).before 0 t d = wblk V c 0 t :=
  wbefore_in_of V (wdat V c) (wA_eq V c 0) (wafter_0 V c) t d

/-- What the body is called with at point `t`, the windows one by one, -/
def wbodyPre (c : Dev nD) (t : Fin cfg0.N) : sProp 𝕄 :=
  iprop((wdat V c).Φ t.castSucc ∗ (wdat V c).owesAt () t.castSucc
    ∗ (∃ d, owns (c : Thread nD τ) (st0_0 t) fullShare ((wdat V c).before 0 t d))
    ∗ (∃ d, owns (c : Thread nD τ) (st0_1 t) fullShare ((wdat V c).before 1 t d)))

/-- and what it returns. -/
def wbodyPost (c : Dev nD) (t : Fin cfg0.N) : sProp 𝕄 :=
  iprop((wdat V c).Φ t.succ ∗ (wdat V c).owesAt () t.succ
    ∗ owns (c : Thread nD τ) (st0_0 t) fullShare ((wdat V c).after 0 t)
    ∗ owns (c : Thread nD τ) (st0_1 t) fullShare ((wdat V c).after 1 t))

/-- The body at any point: the input's memref holds its block, so the triple applies; the invariant and the core's
    dues pass through unread. -/
theorem sound_wbody (c : Dev nD) (t : Fin cfg0.N) :
    wbodyPre V c t ⊢ wp frame (wpE (defs₀ (F := F)) Variants.none c none) Set.univ (bodyAt0 t) (fun _ => wbodyPost V c t) := by
  unfold wbodyPre wbodyPost bodyAt0
  simp only [wbefore_0]
  rw [show (wdat V c).Φ t.succ = (wdat V c).Φ t.castSucc from rfl,
    show (wdat V c).owesAt () t.succ = (wdat V c).owesAt () t.castSucc from rfl,
    wafter_0, wafter_1]
  iintro ⟨HΦ, Ho, ⟨%d0, H0⟩, ⟨%d1, H1⟩⟩
  iapply (sound_wkernel c Set.univ _ _ _ _ _ (wblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem wbody_obligation (c : Dev nD) : BodyObligation (wdat (F := F) V c) (defs₀ (F := F)) Variants.none () Set.univ := fun t => by
  rw [bigSep_W0, bigSep_W0]
  exact sound_wbody V c t

end

end Cert.Kernel.Run

end
-- ==== Proof.K.ProductShared.lean ====
/-
  The product region (the second pallas_call): what its two control cases share.

  Its grid is 32 × 4, walked row-major: point `t` is (i, j) = (t / 4, t % 4). Window 0 is the block of 256 token rows
  i of the activations [8192, 4096] (fetched when i changes, i.e. at the points with j = 0), window 1 the block of
  1024 output columns j of the quantized weights [4096, 4096], window 2 the same columns of the bias row [1, 4096],
  window 3 the output block (i, j) of the result [8192, 4096]. The body branches on `j == 0`: at those points it
  quantizes the activation block into a scratch buffer of its own, which it KEEPS for the three points that follow
  on the same token rows; at every point it multiplies the scratch by the weight block, adds the bias row and stores
  the output block whole.

  Here: each window's block at a point, each input window's buffer holding its block at every point, the branch
  condition decided over the grid (it holds exactly at the points ≡ 0 mod 4), the names of the staging and scratch
  memrefs, and the region's launch invariant spelt buffer by buffer.
-/
import proofs.«106305_j798863917295_2_alg».proof.Proof.Gen.Kernel.Launch
import proofs.«106305_j798863917295_2_alg».proof.Proof.Gen.Kernel.Skeleton
import proofs.«106305_j798863917295_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def mblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any proof
    data whose array is `V`'s and whose body leaves the block in place. -/
theorem mbefore_0_of {c : Dev nD} (dat : Dat τ (Elt F) Unit ℕ (UR sig nD τ) ℕ cfg1 c) (hA : dat.A 0 = V c (Pipeline.arrRef spec1 0))
    (hafter : ∀ t, dat.after 0 t = mblk V c 0 t) (t : Fin cfg1.N) (d) : dat.before 0 t d = mblk V c 0 t :=
  (dat.before_in_eq_fetched 0 rfl (fun _ => rfl) (fun _ _ _ => rfl) (fun t => by rw [hafter]; unfold Dat.blockOf mblk; rw [hA]; try rfl) t d).trans
    (by unfold Dat.fetched Dat.blockOf mblk; rw [hA]; try rfl)
theorem mbefore_1_of {c : Dev nD} (dat : Dat τ (Elt F) Unit ℕ (UR sig nD τ) ℕ cfg1 c) (hA : dat.A 1 = V c (Pipeline.arrRef spec1 1))
    (hafter : ∀ t, dat.after 1 t = mblk V c 1 t) (t : Fin cfg1.N) (d) : dat.before 1 t d = mblk V c 1 t :=
  (dat.before_in_eq_fetched 1 rfl (fun _ => rfl) (fun _ _ _ => rfl) (fun t => by rw [hafter]; unfold Dat.blockOf mblk; rw [hA]; try rfl) t d).trans
    (by unfold Dat.fetched Dat.blockOf mblk; rw [hA]; try rfl)
theorem mbefore_2_of {c : Dev nD} (dat : Dat τ (Elt F) Unit ℕ (UR sig nD τ) ℕ cfg1 c) (hA : dat.A 2 = V c (Pipeline.arrRef spec1 2))
    (hafter : ∀ t, dat.after 2 t = mblk V c 2 t) (t : Fin cfg1.N) (d) : dat.before 2 t d = mblk V c 2 t :=
  (dat.before_in_eq_fetched 2 rfl (fun _ => rfl) (fun _ _ _ => rfl) (fun t => by rw [hafter]; unfold Dat.blockOf mblk; rw [hA]; try rfl) t d).trans
    (by unfold Dat.fetched Dat.blockOf mblk; rw [hA]; try rfl)

end

/-- The body's branch condition `j == 0`, from the grid coordinates (the skeleton's scalar chain substituted). -/
abbrev firstCol (i : grid1.Coords) : Prop := (Scalar.cmpi .ne (Scalar.extui (Scalar.cmpi .eq (BitVec.ofNat 32 (i 1).val) 0#32)) 0#32) = 1#1
/-- It holds at the points ≡ 0 (mod 4) — decided over the grid. -/
theorem firstCol_iff : ∀ t : Fin cfg1.N, firstCol (grid1.coords t) ↔ t.val % 4 = 0 :=
  (by decide +kernel : ∀ t : Fin grid1.N, firstCol (grid1.coords t) ↔ t.val % 4 = 0)

/-- One staging buffer of the output window, through which its contents are stated. -/
abbrev VOut : View sig .tc .vmem S256x1024 .f32 := (Memref.whole cc1_stg3_0 : Memref sig .tc .vmem S256x1024 .f32).view
/-- Each window's current staging memref at point `t`, spelt as the pipeline passes it, and its wholeness. -/
abbrev ms0 (t : Fin cfg1.N) : Memref sig .tc .vmem S256x4096 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S4096x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S256x1024 .f32 := win1_3.stage (cfg1.slots t 3)
abbrev hs3 (t : Fin cfg1.N) : (ms3 t).IsWhole := hstage1_3 ((cfg1.slots t 3).cast nbuf1_3)
/-- The scratch operand: a whole scoped buffer of the kernel's own, passed beside the windows. -/
abbrev scM : Memref sig .tc .vmem S256x4096 .bf16 := Memref.whole cc1_scratch0
/-- The same as a view: what it holds is stated through it. -/
abbrev VScr : View sig .tc .vmem S256x4096 .bf16 := scM.view

/-- A scoped buffer whole at some contents. -/
abbrev anyAt (c : Dev nD) (b : Ref sig .tc) : sProp 𝕄 :=
  iprop(∃ f : Buf (Elt F) ((c : Thread nD τ).loc b), ((c : Thread nD τ).loc b) ↦{fullShare} f)

/-- The region's launch invariant buffer by buffer: the other region's four staging buffers at anything, the scratch
    as a memref owned at some contents, and the generator register at some state. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ (∃ d, owns (c : Thread nD τ) scM fullShare d)) ∗ (∃ r, prngReg c r)) := by
  unfold Pipeline.ΦA; rw [scopedRest1_eq]; simp only [scM, owns_whole]; try rfl

end Cert.Kernel.Run

end
-- ==== Proof.K.ProductRunFirst.lean ====
/-
  The product body at a point of the FIRST column block (`j == 0`): the whole body run once.

  On whole staging memrefs — the three input windows' at their contents, the output window's and the scratch at
  anything — the body loads the activation block, stores its quantized value over the whole scratch, loads the
  scratch back, the weight block and the bias row, and stores the product plus bias over the whole output buffer.
  The run hands the continuation the inputs as they were and the two written buffers with their stores listed as
  pieces; those two piece lists are what the run FINDS (they are this definition's first two components).
-/
import proofs.«106305_j798863917295_2_alg».proof.Proof.K.ProductShared

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runFirst (c : Dev nD) (i : grid1.Coords)
    (arg2 : Memref sig .tc .vmem S256x4096 .f32) (harg2 : arg2.IsWhole) (arg3 : Memref sig .tc .vmem S4096x1024 .bf16) (harg3 : arg3.IsWhole)
    (arg4 : Memref sig .tc .vmem S1x1024 .f32) (harg4 : arg4.IsWhole) (arg5 : Memref sig .tc .vmem S256x1024 .f32) (harg5 : arg5.IsWhole)
    (arg6 : Memref sig .tc .vmem S256x4096 .bf16) (harg6 : arg6.IsWhole) (hc : firstCol i)
    (x0 : Vec F S256x4096 .f32) (x1 : Vec F S4096x1024 .bf16) (x2 : Vec F S1x1024 .f32) :
    Σ' (LO : List (View.Piece (Elt F) S256x1024 .f32)), { LS : List (View.Piece (Elt F) S256x4096 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__bitlinear_kernel i arg2 harg2 arg3 harg3 arg4 harg4 arg5 harg5 arg6 harg6) K } := by
  refine ⟨?_, ?_, fun E K => ?run⟩
  case run =>
    simp only [cc1__bitlinear_kernel_eq_skeleton]; unfold cc1__bitlinear_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Run

end
-- ==== Proof.K.ProductRunRest.lean ====
/-
  The product body at a point of a LATER column block (`j ≠ 0`): the whole body run once.

  The branch is not taken: the scratch is only read, at the contents `xs` the point before left in it, and is handed
  back as it was, like an input; the body multiplies it by the weight block, adds the bias row and stores the result
  over the whole output buffer, whose stores the run FINDS as a piece list (this definition's first component).
-/
import proofs.«106305_j798863917295_2_alg».proof.Proof.K.ProductShared

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runRest (c : Dev nD) (i : grid1.Coords)
    (arg2 : Memref sig .tc .vmem S256x4096 .f32) (harg2 : arg2.IsWhole) (arg3 : Memref sig .tc .vmem S4096x1024 .bf16) (harg3 : arg3.IsWhole)
    (arg4 : Memref sig .tc .vmem S1x1024 .f32) (harg4 : arg4.IsWhole) (arg5 : Memref sig .tc .vmem S256x1024 .f32) (harg5 : arg5.IsWhole)
    (arg6 : Memref sig .tc .vmem S256x4096 .bf16) (harg6 : arg6.IsWhole) (hc : ¬firstCol i)
    (x0 : Vec F S256x4096 .f32) (x1 : Vec F S4096x1024 .bf16) (x2 : Vec F S1x1024 .f32) (xs : Vec F S256x4096 .bf16) :
    { LO : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ owns (c : Thread nD τ) arg6 fullShare xs) -∗ K ⟨⟩))
          ⊢ wp frame (wpE (defs₀ (F := F)) Variants.none c none) E (cc1__bitlinear_kernel i arg2 harg2 arg3 harg3 arg4 harg4 arg5 harg5 arg6 harg6) K } := by
  refine ⟨?_, fun E K => ?run⟩
  case run =>
    simp only [cc1__bitlinear_kernel_eq_skeleton]; unfold cc1__bitlinear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS

end Cert.Kernel.Run

end
-- ==== Proof.K.ProductRegion.lean ====
/-
  The product region (the second pallas_call), at any float instance, from buffer contents `V` found at its entry:
  what its buffers hold point by point, its proof data and its body obligation.

  The scratch is CARRIED: at a point of the first column block (t ≡ 0 mod 4) the body overwrites it whole with the
  quantized activation block and then reads it; at the three points after it the body only reads what the point
  before left. So the contents after each point are defined by recursion on the point (`holds`): the output block's
  buffer and the scratch after point n are the first-column run's pieces read back when n ≡ 0, and otherwise the
  later-column run's output pieces over the scratch that point n − 1 left, the scratch unchanged. The region's
  invariant before point n is, for n = 0, what the launch hands every region (every scoped buffer at anything), and
  for n > 0 the same with the scratch at exactly what point n − 1 left. The output window is stored whole at every
  point, so no window is ever idle, and each input window's buffer holds its block at every point.
-/
import proofs.«106305_j798863917295_2_alg».proof.Proof.K.ProductRunFirst
import proofs.«106305_j798863917295_2_alg».proof.Proof.K.ProductRunRest

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The first-column run at point `t`: on the point's staging memrefs and the scratch, over the point's blocks. -/
noncomputable def pointFirst (c : Dev nD) (t : Fin cfg1.N) (h : t.val % 4 = 0) :=
  runFirst (F := F) c (grid1.coords t) (ms0 t) (hs0 t) (ms1 t) (hs1 t) (ms2 t) (hs2 t) (ms3 t) (hs3 t) scM (Memref.isWhole_whole _)
    ((firstCol_iff t).mpr h) (mblk V c 0 t) (mblk V c 1 t) (mblk V c 2 t)

/-- The later-column run at point `t`, the scratch at `xs`. -/
noncomputable def pointRest (c : Dev nD) (t : Fin cfg1.N) (h : ¬t.val % 4 = 0) (xs : Vec F S256x4096 .bf16) :=
  runRest (F := F) c (grid1.coords t) (ms0 t) (hs0 t) (ms1 t) (hs1 t) (ms2 t) (hs2 t) (ms3 t) (hs3 t) scM (Memref.isWhole_whole _)
    (fun hh => h ((firstCol_iff t).mp hh)) (mblk V c 0 t) (mblk V c 1 t) (mblk V c 2 t) xs

/-- The first-column run's output pieces tile the output block, so they cover it; -/
theorem coverFirst_out (c : Dev nD) (t : Fin cfg1.N) (h : t.val % 4 = 0) (y : S256x1024.Idx) :
    ∃ pc ∈ (pointFirst V c t h).1, y ∈ pc.1.set :=
  View.cover_of_tiledL (pointFirst V c t h).1 S256x1024.size (by unfold pointFirst; sl_kernel_rfl) y
/-- its scratch pieces tile the scratch; -/
theorem coverFirst_scr (c : Dev nD) (t : Fin cfg1.N) (h : t.val % 4 = 0) (y : S256x4096.Idx) :
    ∃ pc ∈ (pointFirst V c t h).2.1, y ∈ pc.1.set :=
  View.cover_of_tiledL (pointFirst V c t h).2.1 S256x4096.size (by unfold pointFirst; sl_kernel_rfl) y
/-- and the later-column run's output pieces tile the output block. -/
theorem coverRest_out (c : Dev nD) (t : Fin cfg1.N) (h : ¬t.val % 4 = 0) (xs : Vec F S256x4096 .bf16) (y : S256x1024.Idx) :
    ∃ pc ∈ (pointRest V c t h xs).1, y ∈ pc.1.set :=
  View.cover_of_tiledL (pointRest V c t h xs).1 S256x1024.size (by unfold pointRest; sl_kernel_rfl) y

/-- What a first-column point leaves in the output buffer and in the scratch: its pieces read back. -/
def outFirst (c : Dev nD) (t : Fin cfg1.N) (h : t.val % 4 = 0) : Vec F S256x1024 .f32 :=
  VOut.read (Elt F) (VOut.writes (Elt F) VOut.junk (pointFirst V c t h).1)
def scrFirst (c : Dev nD) (t : Fin cfg1.N) (h : t.val % 4 = 0) : Vec F S256x4096 .bf16 :=
  VScr.read (Elt F) (VScr.writes (Elt F) VScr.junk (pointFirst V c t h).2.1)
/-- What a later-column point leaves in the output buffer, the scratch at `xs`. -/
def outRest (c : Dev nD) (t : Fin cfg1.N) (h : ¬t.val % 4 = 0) (xs : Vec F S256x4096 .bf16) : Vec F S256x1024 .f32 :=
  VOut.read (Elt F) (VOut.writes (Elt F) VOut.junk (pointRest V c t h xs).1)

/-- What the output buffer and the scratch hold after the body at position `n`. -/
def holds (c : Dev nD) : (n : ℕ) → n < cfg1.N → Vec F S256x1024 .f32 × Vec F S256x4096 .bf16
  | 0, hn => (outFirst V c ⟨0, hn⟩ (Nat.zero_mod _), scrFirst V c ⟨0, hn⟩ (Nat.zero_mod _))
  | n + 1, hn =>
    if h0 : (n + 1) % 4 = 0 then
      (outFirst V c ⟨n + 1, hn⟩ h0, scrFirst V c ⟨n + 1, hn⟩ h0)
    else
      (outRest V c ⟨n + 1, hn⟩ h0 (holds c n (Nat.lt_of_succ_lt hn)).2, (holds c n (Nat.lt_of_succ_lt hn)).2)

theorem holds_first (c : Dev nD) (t : Fin cfg1.N) (h0 : t.val % 4 = 0) :
    holds V c t.val t.isLt = (outFirst V c t h0, scrFirst V c t h0) := by
  obtain ⟨n, hn⟩ := t
  cases n with
  | zero => exact rfl
  | succ n => exact (dif_pos h0).trans rfl

theorem holds_rest (c : Dev nD) (t : Fin cfg1.N) (h0 : ¬t.val % 4 = 0) :
    holds V c t.val t.isLt = (outRest V c t h0 (holds V c (t.val - 1) (Nat.lt_of_le_of_lt (Nat.sub_le _ _) t.isLt)).2,
      (holds V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`. -/
def PhiS (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1
      ∗ owns (c : Thread nD τ) scM fullShare ((holds V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt c cc0_stg0_0 ∗ anyAt c cc0_stg0_1 ∗ anyAt c cc0_stg1_0 ∗ anyAt c cc0_stg1_1
      ∗ owns (c : Thread nD τ) scM fullShare ((holds V c n hn).2)) ∗ (∃ r, prngReg c r)) := rfl

theorem PhiS_pos (c : Dev nD) (n : ℕ) (h : n ≤ cfg1.N) (hz : n ≠ 0) :
    PhiS V c n h = iprop(iprop(anyAt c cc0_stg0_0 ∗ anyAt c cc0_stg0_1 ∗ anyAt c cc0_stg1_0 ∗ anyAt c cc0_stg1_1
      ∗ owns (c : Thread nD τ) scM fullShare ((holds V c (n - 1) (by omega)).2)) ∗ (∃ r, prngReg c r)) := by
  cases n with
  | zero => exact absurd rfl hz
  | succ n => rfl

/-- The proof data of the region on core `c`. -/
def mdat (c : Dev nD) : Dat τ (Elt F) Unit ℕ (UR sig nD τ) ℕ cfg1 c where
  A w := V c (Pipeline.arrRef spec1 w)
  after w t := match w with
    | ⟨0, _⟩ => mblk V c 0 t
    | ⟨1, _⟩ => mblk V c 1 t
    | ⟨2, _⟩ => mblk V c 2 t
    | ⟨3, _⟩ => (holds V c t.val t.isLt).1
  Φ t := PhiS V c t.val (Nat.le_of_lt_succ t.isLt)
  q _ := fullShare
  owed _ := 0

theorem mA_eq (c : Dev nD) (w : Fin cfg1.W) : (mdat V c).A w = V c (Pipeline.arrRef spec1 w) := by
  dsimp only [mdat]

theorem PhiS_castSucc (c : Dev nD) (t : Fin cfg1.N) :
    (mdat V c).Φ t.castSucc = PhiS V c t.val (Nat.le_of_lt t.isLt) := by
  dsimp only [mdat]; simp only [Fin.coe_castSucc]

theorem mafter_0 (c : Dev nD) (t : Fin cfg1.N) : (mdat V c).after 0 t = mblk V c 0 t := by dsimp only [mdat]
theorem mafter_1 (c : Dev nD) (t : Fin cfg1.N) : (mdat V c).after 1 t = mblk V c 1 t := by dsimp only [mdat]
theorem mafter_2 (c : Dev nD) (t : Fin cfg1.N) : (mdat V c).after 2 t = mblk V c 2 t := by dsimp only [mdat]
theorem mafter_3 (c : Dev nD) (t : Fin cfg1.N) : (mdat V c).after 3 t = (holds V c t.val t.isLt).1 := by dsimp only [mdat]

theorem mbefore_0 (c : Dev nD) (t : Fin cfg1.N) (d) : (mdat V c).before 0 t d = mblk V c 0 t :=
  mbefore_0_of V (mdat V c) (mA_eq V c 0) (mafter_0 V c) t d
theorem mbefore_1 (c : Dev nD) (t : Fin cfg1.N) (d) : (mdat V c).before 1 t d = mblk V c 1 t :=
  mbefore_1_of V (mdat V c) (mA_eq V c 1) (mafter_1 V c) t d
theorem mbefore_2 (c : Dev nD) (t : Fin cfg1.N) (d) : (mdat V c).before 2 t d = mblk V c 2 t :=
  mbefore_2_of V (mdat V c) (mA_eq V c 2) (mafter_2 V c) t d

/-- What the body is called with at point `t`, the windows one by one, -/
def mbodyPre (c : Dev nD) (t : Fin cfg1.N) : sProp 𝕄 :=
  iprop((mdat V c).Φ t.castSucc ∗ (mdat V c).owesAt () t.castSucc
    ∗ (∃ d, owns (c : Thread nD τ) (ms0 t) fullShare ((mdat V c).before 0 t d))
    ∗ (∃ d, owns (c : Thread nD τ) (ms1 t) fullShare ((mdat V c).before 1 t d))
    ∗ (∃ d, owns (c : Thread nD τ) (ms2 t) fullShare ((mdat V c).before 2 t d))
    ∗ (∃ d, owns (c : Thread nD τ) (ms3 t) fullShare ((mdat V c).before 3 t d)))

/-- and what it returns. -/
def mbodyPost (c : Dev nD) (t : Fin cfg1.N) : sProp 𝕄 :=
  iprop((mdat V c).Φ t.succ ∗ (mdat V c).owesAt () t.succ
    ∗ owns (c : Thread nD τ) (ms0 t) fullShare ((mdat V c).after 0 t)
    ∗ owns (c : Thread nD τ) (ms1 t) fullShare ((mdat V c).after 1 t)
    ∗ owns (c : Thread nD τ) (ms2 t) fullShare ((mdat V c).after 2 t)
    ∗ owns (c : Thread nD τ) (ms3 t) fullShare ((mdat V c).after 3 t))

set_option maxHeartbeats 4800000 in
/-- The body at any point: the inputs' memrefs hold their blocks; the closed form of the branch says which run the
    point takes; the invariant hands the body the scratch — at anything before the first point, at what the point
    before left afterwards — and takes it back at this point's contents; the core owes nothing throughout. -/
theorem sound_mbody (c : Dev nD) (t : Fin cfg1.N) :
    mbodyPre V c t ⊢ wp frame (wpE (defs₀ (F := F)) Variants.none c none) Set.univ (bodyAt1 t) (fun _ => mbodyPost V c t) := by
  unfold mbodyPre mbodyPost bodyAt1
  simp only [mbefore_0, mbefore_1, mbefore_2]
  rw [show (mdat V c).owesAt () t.succ = (mdat V c).owesAt () t.castSucc from rfl]
  rw [show (mdat V c).Φ t.succ = PhiS V c (t.val + 1) t.isLt from rfl, PhiS_succ]
  rw [mafter_0, mafter_1, mafter_2, mafter_3]
  have hN : t.val < 128 := lt_of_lt_of_eq t.isLt (show cfg1.N = 128 from N_1)
  by_cases h0 : t.val % 4 = 0
  · rw [holds_first V c t h0]
    unfold outFirst scrFirst; (try dsimp only)
    by_cases hz : t.val = 0
    · rw [PhiS_castSucc V c t, PhiS_zero V c _ _ hz, PhiA1_eq]
      iintro ⟨⟨⟨HA, HB, HC, HD, HS⟩, Hg⟩, Ho, ⟨%d0, H0⟩, ⟨%d1, H1⟩, ⟨%d2, H2⟩, ⟨%d3, H3⟩⟩
      iapply ((pointFirst V c t h0).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HA HB HC HD HS Hg]
      · isplitl [HA HB HC HD HS]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverFirst_scr V c t h0)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverFirst_out V c t h0)
    · rw [PhiS_castSucc V c t, PhiS_pos V c _ _ hz]
      iintro ⟨⟨⟨HA, HB, HC, HD, HS⟩, Hg⟩, Ho, ⟨%d0, H0⟩, ⟨%d1, H1⟩, ⟨%d2, H2⟩, ⟨%d3, H3⟩⟩
      iapply ((pointFirst V c t h0).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HA HB HC HD HS Hg]
      · isplitl [HA HB HC HD HS]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverFirst_scr V c t h0)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverFirst_out V c t h0)
  · rw [holds_rest V c t h0]
    unfold outRest; (try dsimp only)
    have hz : t.val ≠ 0 := fun hz => h0 (by rw [hz])
    rw [PhiS_castSucc V c t, PhiS_pos V c _ _ hz]
    iintro ⟨⟨⟨HA, HB, HC, HD, HS⟩, Hg⟩, Ho, ⟨%d0, H0⟩, ⟨%d1, H1⟩, ⟨%d2, H2⟩, ⟨%d3, H3⟩⟩
    iapply ((pointRest V c t h0 _).2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [HA HB HC HD HS Hg]
    · isplitl [HA HB HC HD HS]
      · isplitl [HA]; · iexact HA
        isplitl [HB]; · iexact HB
        isplitl [HC]; · iexact HC
        isplitl [HD]; · iexact HD
        iexact HS
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverRest_out V c t h0 _)

/-- The library's body obligation, at every point. -/
theorem mbody_obligation (c : Dev nD) : BodyObligation (mdat (F := F) V c) (defs₀ (F := F)) Variants.none () Set.univ := fun t => by
  rw [bigSep_W1, bigSep_W1]
  exact sound_mbody V c t

/-- What the launch hands the region is the invariant before the first point. -/
theorem mhin (c : Dev nD) : Pipeline.ΦA spec1 c ⊢ (mdat V c).Φ 0 := by
  rw [show (mdat V c).Φ 0 = PhiS V c 0 (Nat.zero_le _) from rfl, PhiS_zero V c 0 _ rfl]
  try exact Idealize.SL.BI.Entails.refl _

/-- After any point but the first the invariant gives the launch's back: the scratch's named contents are forgotten. -/
theorem mPhi_out (c : Dev nD) (t : Fin (cfg1.N + 1)) (ht : t.val ≠ 0) : (mdat V c).Φ t ⊢ Pipeline.ΦA spec1 c := by
  rw [show (mdat V c).Φ t = PhiS V c t.val (Nat.le_of_lt_succ t.isLt) from rfl, PhiS_pos V c _ _ ht, PhiA1_eq]
  iintro ⟨⟨HA, HB, HC, HD, HS⟩, Hg⟩
  isplitl [HA HB HC HD HS]
  · isplitl [HA]; · iexact HA
    isplitl [HB]; · iexact HB
    isplitl [HC]; · iexact HC
    isplitl [HD]; · iexact HD
    iexists _; iexact HS
  iexact Hg

/-- The same after the last point. -/
theorem mhout (c : Dev nD) : (mdat V c).Φ (Fin.last cfg1.N) ⊢ Pipeline.ΦA spec1 c :=
  mPhi_out V c _ (by rw [Fin.val_last]; have : cfg1.N = 128 := N_1; omega)

end

end Cert.Kernel.Run

end
-- ==== Proof.K.WholeRun.lean ====
/-
  The whole program's run, at any float instance: @main is the weight-quantization region, two host reshapes, the
  product region, one host reshape.

  The contents of core `c`'s unscoped buffers at each boundary are a fold from the launch memory: a region replaces
  its windows' arrays by what its write-backs leave (an input array is left as it was, an output array is the
  pipeline's fold of the blocks written back) and leaves every other buffer alone; a host stretch applies its
  operations. Each region is a segment entered from "every unscoped buffer at the boundary's contents, the generator
  register at some state, nothing owed" and left at the same with the next boundary's contents; the host stretches
  are segments over their operation lists. The run then says that every weakly fair execution of @main terminates
  without a fault and that EVERY unscoped buffer ends at the last boundary's contents. Read at the three argument
  arrays, which no operation and no region writes, this is the frame claim; read at the result buffer it is the
  kernel's value.
-/
import proofs.«106305_j798863917295_2_alg».proof.Proof.K.WeightRegion
import proofs.«106305_j798863917295_2_alg».proof.Proof.K.ProductRegion

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (wdat (V0 m ρ) c).arrAt w cfg0.N
theorem W1_arr (c : Dev nD) (w : Fin cfg0.W) :
    W1 m ρ c (Proc.devRef .tc (Pipeline.arrRef spec0 w)) = (wdat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (wdat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (mdat (V2 m ρ) c).arrAt w cfg1.N
theorem W3_arr (c : Dev nD) (w : Fin cfg1.W) :
    W3 m ρ c (Proc.devRef .tc (Pipeline.arrRef spec1 w)) = (mdat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (mdat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last reshape (the end). -/
abbrev W4 : Dev nD → Valuation τ sig (Elt F) := fun c => StableHlo.after hostOps2 (W3 m ρ c)

/-! ## The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 0).trans (((wdat (V0 m ρ) c).arrAt_in 0 rfl _).trans (wA_eq (V0 m ρ) c 0))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => wdat (V0 m ρ) c
  | ⟨1, _⟩ => fun c => mdat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the
    contents after it. Its arrays are split out of the unscoped buffers and put back at what the write-backs leave;
    the generator register goes into the region's invariant and comes back; nothing owed; no semaphore of the
    kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (wbody_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at what the write-backs leave;
    the generator register goes into the region's invariant and comes back; nothing owed; no semaphore of the
    kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (mbody_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (mhin (V2 m ρ) c)
    unfold Pipeline.ΦA
    iintro ⟨Hp, -, Hr⟩
    isplitl [Hr]; · iexact Hr
    iexact Hp
  hout c := by
    rw [Pipeline.ownSems0_none]
    refine (mhout (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .region (reg0 m ρ),
    .host (hseg hostOps1 hostOps1_sub ops1_fresh (W1 m ρ)),
    .region (reg1 m ρ),
    .host (hseg hostOps2 hostOps2_sub ops2_fresh (W3 m ρ)) ]
/-- @main IS the run of the segments. -/
theorem main_run (c : Dev nD) : main (F := F) c = Pipeline.Seg.run (segs m ρ) :=
  main_segs adm (pdats m ρ) () 𝒱₀ L lv _ _ (reg0 m ρ) (reg1 m ρ) rfl rfl c

set_option backward.isDefEq.respectTransparency.types false in
/-- THE RUN: from any memory with zero counters every weakly fair execution of @main on the TensorCores terminates,
    nothing faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Run

end
-- ==== Proof.KI.WeightRegion.lean ====
/-
  The weight-quantization region (the first pallas_call), at any float instance, from buffer contents `V` found at
  its entry.

  Its grid has 16 points. At point `t` the pipeline hands the body a block of 256 rows of the weight matrix
  (window 0: rows 256·t … 256·t+255, all 4096 columns) and a [4096, 256] staging buffer for the transposed,
  quantized block (window 1: columns 256·t … of the [4096, 4096] result). The body has ONE control case: it loads
  the input block whole, computes one value from it (the skeleton's `k0_pay1`) and stores it over the whole output
  buffer. So after the body the output buffer holds that value of the input block, whatever it held before, and the
  input buffer is unchanged; nothing is kept between points, and the region's invariant is the scoped rest and the
  generator register, untouched.

  Proved here: the body's triple on any whole staging memrefs, the pipeline's proof data (what each window's buffer
  holds after each point), and the body obligation at every point.
-/
import proofs.«106305_j798863917295_2_alg».proof.Proof.Gen.KernelIdeal.Launch
import proofs.«106305_j798863917295_2_alg».proof.Proof.Gen.KernelIdeal.Skeleton
import proofs.«106305_j798863917295_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def wblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem wbefore_in_of {c : Dev nD} (dat : Dat τ (Elt F) Unit ℕ (UR sig nD τ) ℕ cfg0 c) (hA : dat.A 0 = V c (Pipeline.arrRef spec0 0))
    (hafter : ∀ t, dat.after 0 t = wblk V c 0 t) (t : Fin cfg0.N) (d) : dat.before 0 t d = wblk V c 0 t :=
  (dat.before_in_eq_fetched 0 rfl (fun _ => rfl) (fun _ _ _ => rfl) (fun t => by rw [hafter]; unfold Dat.blockOf wblk; rw [hA]; try rfl) t d).trans
    (by unfold Dat.fetched Dat.blockOf wblk; rw [hA]; try rfl)

/-- The body's two whole-buffer rectangles. -/
abbrev rW_in : Rect S256x4096 := Rect.unit (s := S256x4096) ![0, 0] S256x4096.size inb_S256x4096_S256x4096_0_0
abbrev rW_out : Rect S4096x256 := Rect.unit (s := S4096x256) ![0, 0] S4096x256.size inb_S4096x256_S4096x256_0_0

/-- What the body leaves in the output window's buffer, from the input block: its one store. -/
def wout (x0 : Vec F S256x4096 .f32) : Vec F S4096x256 .bf16 :=
  View.canon [⟨rW_out, k0_pay1 (View.ld x0 rW_in)⟩]

/-- The one store covers the buffer. -/
theorem wcover (p0 : Vec F S4096x256 .bf16) (y : S4096x256.Idx) :
    ∃ pc ∈ ([⟨rW_out, p0⟩] : List (View.Piece (Elt F) S4096x256 .bf16)), y ∈ pc.1.set :=
  View.cover_of_tiled [⟨rW_out, p0⟩] S4096x256.size (by rfl) y

set_option maxHeartbeats 1000000 in
/-- The body on whole staging memrefs, the input's at contents `x0` and the output's at anything, runs to the
    continuation holding the input's as it was and the output's at `wout x0`. -/
theorem sound_wkernel (c : Dev nD) (E : Set ℕ) (i : grid0.Coords) (arg1 : Memref sig .tc .vmem S256x4096 .f32) (harg1 : arg1.IsWhole)
    (arg2 : Memref sig .tc .vmem S4096x256 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (wout x0)) -∗ K ⟨⟩))
      ⊢ wp frame (wpE (defs₀ (F := F)) Variants.none c none) E (cc0__weight_quant_kernel i arg1 harg1 arg2 harg2) K := by
  simp only [cc0__weight_quant_kernel_eq_skeleton]; unfold cc0__weight_quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (wcover _)

/-- The proof data of the region on core `c`: the arrays as found; after the body at point `t` the input's buffer
    at its block and the output's at `wout` of it; the invariant the scoped rest and the generator register;
    nothing owed; full shares. -/
def wdat (c : Dev nD) : Dat τ (Elt F) Unit ℕ (UR sig nD τ) ℕ cfg0 c where
  A w := V c (Pipeline.arrRef spec0 w)
  after w t := match w with
    | ⟨0, _⟩ => wblk V c 0 t
    | ⟨1, _⟩ => wout (wblk V c 0 t)
  Φ _ := Pipeline.ΦA spec0 c
  q _ := fullShare
  owed _ := 0

theorem wA_eq (c : Dev nD) (w : Fin cfg0.W) : (wdat V c).A w = V c (Pipeline.arrRef spec0 w) := by
  dsimp only [wdat]

theorem wafter_0 (c : Dev nD) (t : Fin cfg0.N) : (wdat V c).after 0 t = wblk V c 0 t := by dsimp only [wdat]
theorem wafter_1 (c : Dev nD) (t : Fin cfg0.N) : (wdat V c).after 1 t = wout (wblk V c 0 t) := by dsimp only [wdat]

theorem wbefore_0 (c : Dev nD) (t : Fin cfg0.N) (d) : (wdat V c).before 0 t d = wblk V c 0 t :=
  wbefore_in_of V (wdat V c) (wA_eq V c 0) (wafter_0 V c) t d

/-- What the body is called with at point `t`, the windows one by one, -/
def wbodyPre (c : Dev nD) (t : Fin cfg0.N) : sProp 𝕄 :=
  iprop((wdat V c).Φ t.castSucc ∗ (wdat V c).owesAt () t.castSucc
    ∗ (∃ d, owns (c : Thread nD τ) (st0_0 t) fullShare ((wdat V c).before 0 t d))
    ∗ (∃ d, owns (c : Thread nD τ) (st0_1 t) fullShare ((wdat V c).before 1 t d)))

/-- and what it returns. -/
def wbodyPost (c : Dev nD) (t : Fin cfg0.N) : sProp 𝕄 :=
  iprop((wdat V c).Φ t.succ ∗ (wdat V c).owesAt () t.succ
    ∗ owns (c : Thread nD τ) (st0_0 t) fullShare ((wdat V c).after 0 t)
    ∗ owns (c : Thread nD τ) (st0_1 t) fullShare ((wdat V c).after 1 t))

/-- The body at any point: the input's memref holds its block, so the triple applies; the invariant and the core's
    dues pass through unread. -/
theorem sound_wbody (c : Dev nD) (t : Fin cfg0.N) :
    wbodyPre V c t ⊢ wp frame (wpE (defs₀ (F := F)) Variants.none c none) Set.univ (bodyAt0 t) (fun _ => wbodyPost V c t) := by
  unfold wbodyPre wbodyPost bodyAt0
  simp only [wbefore_0]
  rw [show (wdat V c).Φ t.succ = (wdat V c).Φ t.castSucc from rfl,
    show (wdat V c).owesAt () t.succ = (wdat V c).owesAt () t.castSucc from rfl,
    wafter_0, wafter_1]
  iintro ⟨HΦ, Ho, ⟨%d0, H0⟩, ⟨%d1, H1⟩⟩
  iapply (sound_wkernel c Set.univ _ _ _ _ _ (wblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem wbody_obligation (c : Dev nD) : BodyObligation (wdat (F := F) V c) (defs₀ (F := F)) Variants.none () Set.univ := fun t => by
  rw [bigSep_W0, bigSep_W0]
  exact sound_wbody V c t

end

end Cert.KernelIdeal.Run

end
-- ==== Proof.KI.ProductShared.lean ====
/-
  The product region (the second pallas_call): what its two control cases share.

  Its grid is 32 × 4, walked row-major: point `t` is (i, j) = (t / 4, t % 4). Window 0 is the block of 256 token rows
  i of the activations [8192, 4096] (fetched when i changes, i.e. at the points with j = 0), window 1 the block of
  1024 output columns j of the quantized weights [4096, 4096], window 2 the same columns of the bias row [1, 4096],
  window 3 the output block (i, j) of the result [8192, 4096]. The body branches on `j == 0`: at those points it
  quantizes the activation block into a scratch buffer of its own, which it KEEPS for the three points that follow
  on the same token rows; at every point it multiplies the scratch by the weight block, adds the bias row and stores
  the output block whole.

  Here: each window's block at a point, each input window's buffer holding its block at every point, the branch
  condition decided over the grid (it holds exactly at the points ≡ 0 mod 4), the names of the staging and scratch
  memrefs, and the region's launch invariant spelt buffer by buffer.
-/
import proofs.«106305_j798863917295_2_alg».proof.Proof.Gen.KernelIdeal.Launch
import proofs.«106305_j798863917295_2_alg».proof.Proof.Gen.KernelIdeal.Skeleton
import proofs.«106305_j798863917295_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def mblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any proof
    data whose array is `V`'s and whose body leaves the block in place. -/
theorem mbefore_0_of {c : Dev nD} (dat : Dat τ (Elt F) Unit ℕ (UR sig nD τ) ℕ cfg1 c) (hA : dat.A 0 = V c (Pipeline.arrRef spec1 0))
    (hafter : ∀ t, dat.after 0 t = mblk V c 0 t) (t : Fin cfg1.N) (d) : dat.before 0 t d = mblk V c 0 t :=
  (dat.before_in_eq_fetched 0 rfl (fun _ => rfl) (fun _ _ _ => rfl) (fun t => by rw [hafter]; unfold Dat.blockOf mblk; rw [hA]; try rfl) t d).trans
    (by unfold Dat.fetched Dat.blockOf mblk; rw [hA]; try rfl)
theorem mbefore_1_of {c : Dev nD} (dat : Dat τ (Elt F) Unit ℕ (UR sig nD τ) ℕ cfg1 c) (hA : dat.A 1 = V c (Pipeline.arrRef spec1 1))
    (hafter : ∀ t, dat.after 1 t = mblk V c 1 t) (t : Fin cfg1.N) (d) : dat.before 1 t d = mblk V c 1 t :=
  (dat.before_in_eq_fetched 1 rfl (fun _ => rfl) (fun _ _ _ => rfl) (fun t => by rw [hafter]; unfold Dat.blockOf mblk; rw [hA]; try rfl) t d).trans
    (by unfold Dat.fetched Dat.blockOf mblk; rw [hA]; try rfl)
theorem mbefore_2_of {c : Dev nD} (dat : Dat τ (Elt F) Unit ℕ (UR sig nD τ) ℕ cfg1 c) (hA : dat.A 2 = V c (Pipeline.arrRef spec1 2))
    (hafter : ∀ t, dat.after 2 t = mblk V c 2 t) (t : Fin cfg1.N) (d) : dat.before 2 t d = mblk V c 2 t :=
  (dat.before_in_eq_fetched 2 rfl (fun _ => rfl) (fun _ _ _ => rfl) (fun t => by rw [hafter]; unfold Dat.blockOf mblk; rw [hA]; try rfl) t d).trans
    (by unfold Dat.fetched Dat.blockOf mblk; rw [hA]; try rfl)

end

/-- The body's branch condition `j == 0`, from the grid coordinates (the skeleton's scalar chain substituted). -/
abbrev firstCol (i : grid1.Coords) : Prop := (Scalar.cmpi .ne (Scalar.extui (Scalar.cmpi .eq (BitVec.ofNat 32 (i 1).val) 0#32)) 0#32) = 1#1
/-- It holds at the points ≡ 0 (mod 4) — decided over the grid. -/
theorem firstCol_iff : ∀ t : Fin cfg1.N, firstCol (grid1.coords t) ↔ t.val % 4 = 0 :=
  (by decide +kernel : ∀ t : Fin grid1.N, firstCol (grid1.coords t) ↔ t.val % 4 = 0)

/-- One staging buffer of the output window, through which its contents are stated. -/
abbrev VOut : View sig .tc .vmem S256x1024 .f32 := (Memref.whole cc1_stg3_0 : Memref sig .tc .vmem S256x1024 .f32).view
/-- Each window's current staging memref at point `t`, spelt as the pipeline passes it, and its wholeness. -/
abbrev ms0 (t : Fin cfg1.N) : Memref sig .tc .vmem S256x4096 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S4096x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S256x1024 .f32 := win1_3.stage (cfg1.slots t 3)
abbrev hs3 (t : Fin cfg1.N) : (ms3 t).IsWhole := hstage1_3 ((cfg1.slots t 3).cast nbuf1_3)
/-- The scratch operand: a whole scoped buffer of the kernel's own, passed beside the windows. -/
abbrev scM : Memref sig .tc .vmem S256x4096 .bf16 := Memref.whole cc1_scratch0
/-- The same as a view: what it holds is stated through it. -/
abbrev VScr : View sig .tc .vmem S256x4096 .bf16 := scM.view

/-- A scoped buffer whole at some contents. -/
abbrev anyAt (c : Dev nD) (b : Ref sig .tc) : sProp 𝕄 :=
  iprop(∃ f : Buf (Elt F) ((c : Thread nD τ).loc b), ((c : Thread nD τ).loc b) ↦{fullShare} f)

/-- The region's launch invariant buffer by buffer: the other region's four staging buffers at anything, the scratch
    as a memref owned at some contents, and the generator register at some state. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ (∃ d, owns (c : Thread nD τ) scM fullShare d)) ∗ (∃ r, prngReg c r)) := by
  unfold Pipeline.ΦA; rw [scopedRest1_eq]; simp only [scM, owns_whole]; try rfl

end Cert.KernelIdeal.Run

end
-- ==== Proof.KI.ProductRunFirst.lean ====
/-
  The product body at a point of the FIRST column block (`j == 0`): the whole body run once.

  On whole staging memrefs — the three input windows' at their contents, the output window's and the scratch at
  anything — the body loads the activation block, stores its quantized value over the whole scratch, loads the
  scratch back, the weight block and the bias row, and stores the product plus bias over the whole output buffer.
  The run hands the continuation the inputs as they were and the two written buffers with their stores listed as
  pieces; those two piece lists are what the run FINDS (they are this definition's first two components).
-/
import proofs.«106305_j798863917295_2_alg».proof.Proof.KI.ProductShared

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runFirst (c : Dev nD) (i : grid1.Coords)
    (arg2 : Memref sig .tc .vmem S256x4096 .f32) (harg2 : arg2.IsWhole) (arg3 : Memref sig .tc .vmem S4096x1024 .bf16) (harg3 : arg3.IsWhole)
    (arg4 : Memref sig .tc .vmem S1x1024 .f32) (harg4 : arg4.IsWhole) (arg5 : Memref sig .tc .vmem S256x1024 .f32) (harg5 : arg5.IsWhole)
    (arg6 : Memref sig .tc .vmem S256x4096 .bf16) (harg6 : arg6.IsWhole) (hc : firstCol i)
    (x0 : Vec F S256x4096 .f32) (x1 : Vec F S4096x1024 .bf16) (x2 : Vec F S1x1024 .f32) :
    Σ' (LO : List (View.Piece (Elt F) S256x1024 .f32)), { LS : List (View.Piece (Elt F) S256x4096 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__bitlinear_kernel i arg2 harg2 arg3 harg3 arg4 harg4 arg5 harg5 arg6 harg6) K } := by
  refine ⟨?_, ?_, fun E K => ?run⟩
  case run =>
    simp only [cc1__bitlinear_kernel_eq_skeleton]; unfold cc1__bitlinear_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Run

end
-- ==== Proof.KI.ProductRunRest.lean ====
/-
  The product body at a point of a LATER column block (`j ≠ 0`): the whole body run once.

  The branch is not taken: the scratch is only read, at the contents `xs` the point before left in it, and is handed
  back as it was, like an input; the body multiplies it by the weight block, adds the bias row and stores the result
  over the whole output buffer, whose stores the run FINDS as a piece list (this definition's first component).
-/
import proofs.«106305_j798863917295_2_alg».proof.Proof.KI.ProductShared

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runRest (c : Dev nD) (i : grid1.Coords)
    (arg2 : Memref sig .tc .vmem S256x4096 .f32) (harg2 : arg2.IsWhole) (arg3 : Memref sig .tc .vmem S4096x1024 .bf16) (harg3 : arg3.IsWhole)
    (arg4 : Memref sig .tc .vmem S1x1024 .f32) (harg4 : arg4.IsWhole) (arg5 : Memref sig .tc .vmem S256x1024 .f32) (harg5 : arg5.IsWhole)
    (arg6 : Memref sig .tc .vmem S256x4096 .bf16) (harg6 : arg6.IsWhole) (hc : ¬firstCol i)
    (x0 : Vec F S256x4096 .f32) (x1 : Vec F S4096x1024 .bf16) (x2 : Vec F S1x1024 .f32) (xs : Vec F S256x4096 .bf16) :
    { LO : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ owns (c : Thread nD τ) arg6 fullShare xs) -∗ K ⟨⟩))
          ⊢ wp frame (wpE (defs₀ (F := F)) Variants.none c none) E (cc1__bitlinear_kernel i arg2 harg2 arg3 harg3 arg4 harg4 arg5 harg5 arg6 harg6) K } := by
  refine ⟨?_, fun E K => ?run⟩
  case run =>
    simp only [cc1__bitlinear_kernel_eq_skeleton]; unfold cc1__bitlinear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS

end Cert.KernelIdeal.Run

end
-- ==== Proof.KI.ProductRegion.lean ====
/-
  The product region (the second pallas_call), at any float instance, from buffer contents `V` found at its entry:
  what its buffers hold point by point, its proof data and its body obligation.

  The scratch is CARRIED: at a point of the first column block (t ≡ 0 mod 4) the body overwrites it whole with the
  quantized activation block and then reads it; at the three points after it the body only reads what the point
  before left. So the contents after each point are defined by recursion on the point (`holds`): the output block's
  buffer and the scratch after point n are the first-column run's pieces read back when n ≡ 0, and otherwise the
  later-column run's output pieces over the scratch that point n − 1 left, the scratch unchanged. The region's
  invariant before point n is, for n = 0, what the launch hands every region (every scoped buffer at anything), and
  for n > 0 the same with the scratch at exactly what point n − 1 left. The output window is stored whole at every
  point, so no window is ever idle, and each input window's buffer holds its block at every point.
-/
import proofs.«106305_j798863917295_2_alg».proof.Proof.KI.ProductRunFirst
import proofs.«106305_j798863917295_2_alg».proof.Proof.KI.ProductRunRest

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The first-column run at point `t`: on the point's staging memrefs and the scratch, over the point's blocks. -/
noncomputable def pointFirst (c : Dev nD) (t : Fin cfg1.N) (h : t.val % 4 = 0) :=
  runFirst (F := F) c (grid1.coords t) (ms0 t) (hs0 t) (ms1 t) (hs1 t) (ms2 t) (hs2 t) (ms3 t) (hs3 t) scM (Memref.isWhole_whole _)
    ((firstCol_iff t).mpr h) (mblk V c 0 t) (mblk V c 1 t) (mblk V c 2 t)

/-- The later-column run at point `t`, the scratch at `xs`. -/
noncomputable def pointRest (c : Dev nD) (t : Fin cfg1.N) (h : ¬t.val % 4 = 0) (xs : Vec F S256x4096 .bf16) :=
  runRest (F := F) c (grid1.coords t) (ms0 t) (hs0 t) (ms1 t) (hs1 t) (ms2 t) (hs2 t) (ms3 t) (hs3 t) scM (Memref.isWhole_whole _)
    (fun hh => h ((firstCol_iff t).mp hh)) (mblk V c 0 t) (mblk V c 1 t) (mblk V c 2 t) xs

/-- The first-column run's output pieces tile the output block, so they cover it; -/
theorem coverFirst_out (c : Dev nD) (t : Fin cfg1.N) (h : t.val % 4 = 0) (y : S256x1024.Idx) :
    ∃ pc ∈ (pointFirst V c t h).1, y ∈ pc.1.set :=
  View.cover_of_tiledL (pointFirst V c t h).1 S256x1024.size (by unfold pointFirst; sl_kernel_rfl) y
/-- its scratch pieces tile the scratch; -/
theorem coverFirst_scr (c : Dev nD) (t : Fin cfg1.N) (h : t.val % 4 = 0) (y : S256x4096.Idx) :
    ∃ pc ∈ (pointFirst V c t h).2.1, y ∈ pc.1.set :=
  View.cover_of_tiledL (pointFirst V c t h).2.1 S256x4096.size (by unfold pointFirst; sl_kernel_rfl) y
/-- and the later-column run's output pieces tile the output block. -/
theorem coverRest_out (c : Dev nD) (t : Fin cfg1.N) (h : ¬t.val % 4 = 0) (xs : Vec F S256x4096 .bf16) (y : S256x1024.Idx) :
    ∃ pc ∈ (pointRest V c t h xs).1, y ∈ pc.1.set :=
  View.cover_of_tiledL (pointRest V c t h xs).1 S256x1024.size (by unfold pointRest; sl_kernel_rfl) y

/-- What a first-column point leaves in the output buffer and in the scratch: its pieces read back. -/
def outFirst (c : Dev nD) (t : Fin cfg1.N) (h : t.val % 4 = 0) : Vec F S256x1024 .f32 :=
  VOut.read (Elt F) (VOut.writes (Elt F) VOut.junk (pointFirst V c t h).1)
def scrFirst (c : Dev nD) (t : Fin cfg1.N) (h : t.val % 4 = 0) : Vec F S256x4096 .bf16 :=
  VScr.read (Elt F) (VScr.writes (Elt F) VScr.junk (pointFirst V c t h).2.1)
/-- What a later-column point leaves in the output buffer, the scratch at `xs`. -/
def outRest (c : Dev nD) (t : Fin cfg1.N) (h : ¬t.val % 4 = 0) (xs : Vec F S256x4096 .bf16) : Vec F S256x1024 .f32 :=
  VOut.read (Elt F) (VOut.writes (Elt F) VOut.junk (pointRest V c t h xs).1)

/-- What the output buffer and the scratch hold after the body at position `n`. -/
def holds (c : Dev nD) : (n : ℕ) → n < cfg1.N → Vec F S256x1024 .f32 × Vec F S256x4096 .bf16
  | 0, hn => (outFirst V c ⟨0, hn⟩ (Nat.zero_mod _), scrFirst V c ⟨0, hn⟩ (Nat.zero_mod _))
  | n + 1, hn =>
    if h0 : (n + 1) % 4 = 0 then
      (outFirst V c ⟨n + 1, hn⟩ h0, scrFirst V c ⟨n + 1, hn⟩ h0)
    else
      (outRest V c ⟨n + 1, hn⟩ h0 (holds c n (Nat.lt_of_succ_lt hn)).2, (holds c n (Nat.lt_of_succ_lt hn)).2)

theorem holds_first (c : Dev nD) (t : Fin cfg1.N) (h0 : t.val % 4 = 0) :
    holds V c t.val t.isLt = (outFirst V c t h0, scrFirst V c t h0) := by
  obtain ⟨n, hn⟩ := t
  cases n with
  | zero => exact rfl
  | succ n => exact (dif_pos h0).trans rfl

theorem holds_rest (c : Dev nD) (t : Fin cfg1.N) (h0 : ¬t.val % 4 = 0) :
    holds V c t.val t.isLt = (outRest V c t h0 (holds V c (t.val - 1) (Nat.lt_of_le_of_lt (Nat.sub_le _ _) t.isLt)).2,
      (holds V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`. -/
def PhiS (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1
      ∗ owns (c : Thread nD τ) scM fullShare ((holds V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt c cc0_stg0_0 ∗ anyAt c cc0_stg0_1 ∗ anyAt c cc0_stg1_0 ∗ anyAt c cc0_stg1_1
      ∗ owns (c : Thread nD τ) scM fullShare ((holds V c n hn).2)) ∗ (∃ r, prngReg c r)) := rfl

theorem PhiS_pos (c : Dev nD) (n : ℕ) (h : n ≤ cfg1.N) (hz : n ≠ 0) :
    PhiS V c n h = iprop(iprop(anyAt c cc0_stg0_0 ∗ anyAt c cc0_stg0_1 ∗ anyAt c cc0_stg1_0 ∗ anyAt c cc0_stg1_1
      ∗ owns (c : Thread nD τ) scM fullShare ((holds V c (n - 1) (by omega)).2)) ∗ (∃ r, prngReg c r)) := by
  cases n with
  | zero => exact absurd rfl hz
  | succ n => rfl

/-- The proof data of the region on core `c`. -/
def mdat (c : Dev nD) : Dat τ (Elt F) Unit ℕ (UR sig nD τ) ℕ cfg1 c where
  A w := V c (Pipeline.arrRef spec1 w)
  after w t := match w with
    | ⟨0, _⟩ => mblk V c 0 t
    | ⟨1, _⟩ => mblk V c 1 t
    | ⟨2, _⟩ => mblk V c 2 t
    | ⟨3, _⟩ => (holds V c t.val t.isLt).1
  Φ t := PhiS V c t.val (Nat.le_of_lt_succ t.isLt)
  q _ := fullShare
  owed _ := 0

theorem mA_eq (c : Dev nD) (w : Fin cfg1.W) : (mdat V c).A w = V c (Pipeline.arrRef spec1 w) := by
  dsimp only [mdat]

theorem PhiS_castSucc (c : Dev nD) (t : Fin cfg1.N) :
    (mdat V c).Φ t.castSucc = PhiS V c t.val (Nat.le_of_lt t.isLt) := by
  dsimp only [mdat]; simp only [Fin.coe_castSucc]

theorem mafter_0 (c : Dev nD) (t : Fin cfg1.N) : (mdat V c).after 0 t = mblk V c 0 t := by dsimp only [mdat]
theorem mafter_1 (c : Dev nD) (t : Fin cfg1.N) : (mdat V c).after 1 t = mblk V c 1 t := by dsimp only [mdat]
theorem mafter_2 (c : Dev nD) (t : Fin cfg1.N) : (mdat V c).after 2 t = mblk V c 2 t := by dsimp only [mdat]
theorem mafter_3 (c : Dev nD) (t : Fin cfg1.N) : (mdat V c).after 3 t = (holds V c t.val t.isLt).1 := by dsimp only [mdat]

theorem mbefore_0 (c : Dev nD) (t : Fin cfg1.N) (d) : (mdat V c).before 0 t d = mblk V c 0 t :=
  mbefore_0_of V (mdat V c) (mA_eq V c 0) (mafter_0 V c) t d
theorem mbefore_1 (c : Dev nD) (t : Fin cfg1.N) (d) : (mdat V c).before 1 t d = mblk V c 1 t :=
  mbefore_1_of V (mdat V c) (mA_eq V c 1) (mafter_1 V c) t d
theorem mbefore_2 (c : Dev nD) (t : Fin cfg1.N) (d) : (mdat V c).before 2 t d = mblk V c 2 t :=
  mbefore_2_of V (mdat V c) (mA_eq V c 2) (mafter_2 V c) t d

/-- What the body is called with at point `t`, the windows one by one, -/
def mbodyPre (c : Dev nD) (t : Fin cfg1.N) : sProp 𝕄 :=
  iprop((mdat V c).Φ t.castSucc ∗ (mdat V c).owesAt () t.castSucc
    ∗ (∃ d, owns (c : Thread nD τ) (ms0 t) fullShare ((mdat V c).before 0 t d))
    ∗ (∃ d, owns (c : Thread nD τ) (ms1 t) fullShare ((mdat V c).before 1 t d))
    ∗ (∃ d, owns (c : Thread nD τ) (ms2 t) fullShare ((mdat V c).before 2 t d))
    ∗ (∃ d, owns (c : Thread nD τ) (ms3 t) fullShare ((mdat V c).before 3 t d)))

/-- and what it returns. -/
def mbodyPost (c : Dev nD) (t : Fin cfg1.N) : sProp 𝕄 :=
  iprop((mdat V c).Φ t.succ ∗ (mdat V c).owesAt () t.succ
    ∗ owns (c : Thread nD τ) (ms0 t) fullShare ((mdat V c).after 0 t)
    ∗ owns (c : Thread nD τ) (ms1 t) fullShare ((mdat V c).after 1 t)
    ∗ owns (c : Thread nD τ) (ms2 t) fullShare ((mdat V c).after 2 t)
    ∗ owns (c : Thread nD τ) (ms3 t) fullShare ((mdat V c).after 3 t))

set_option maxHeartbeats 4800000 in
/-- The body at any point: the inputs' memrefs hold their blocks; the closed form of the branch says which run the
    point takes; the invariant hands the body the scratch — at anything before the first point, at what the point
    before left afterwards — and takes it back at this point's contents; the core owes nothing throughout. -/
theorem sound_mbody (c : Dev nD) (t : Fin cfg1.N) :
    mbodyPre V c t ⊢ wp frame (wpE (defs₀ (F := F)) Variants.none c none) Set.univ (bodyAt1 t) (fun _ => mbodyPost V c t) := by
  unfold mbodyPre mbodyPost bodyAt1
  simp only [mbefore_0, mbefore_1, mbefore_2]
  rw [show (mdat V c).owesAt () t.succ = (mdat V c).owesAt () t.castSucc from rfl]
  rw [show (mdat V c).Φ t.succ = PhiS V c (t.val + 1) t.isLt from rfl, PhiS_succ]
  rw [mafter_0, mafter_1, mafter_2, mafter_3]
  have hN : t.val < 128 := lt_of_lt_of_eq t.isLt (show cfg1.N = 128 from N_1)
  by_cases h0 : t.val % 4 = 0
  · rw [holds_first V c t h0]
    unfold outFirst scrFirst; (try dsimp only)
    by_cases hz : t.val = 0
    · rw [PhiS_castSucc V c t, PhiS_zero V c _ _ hz, PhiA1_eq]
      iintro ⟨⟨⟨HA, HB, HC, HD, HS⟩, Hg⟩, Ho, ⟨%d0, H0⟩, ⟨%d1, H1⟩, ⟨%d2, H2⟩, ⟨%d3, H3⟩⟩
      iapply ((pointFirst V c t h0).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HA HB HC HD HS Hg]
      · isplitl [HA HB HC HD HS]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverFirst_scr V c t h0)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverFirst_out V c t h0)
    · rw [PhiS_castSucc V c t, PhiS_pos V c _ _ hz]
      iintro ⟨⟨⟨HA, HB, HC, HD, HS⟩, Hg⟩, Ho, ⟨%d0, H0⟩, ⟨%d1, H1⟩, ⟨%d2, H2⟩, ⟨%d3, H3⟩⟩
      iapply ((pointFirst V c t h0).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HA HB HC HD HS Hg]
      · isplitl [HA HB HC HD HS]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverFirst_scr V c t h0)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverFirst_out V c t h0)
  · rw [holds_rest V c t h0]
    unfold outRest; (try dsimp only)
    have hz : t.val ≠ 0 := fun hz => h0 (by rw [hz])
    rw [PhiS_castSucc V c t, PhiS_pos V c _ _ hz]
    iintro ⟨⟨⟨HA, HB, HC, HD, HS⟩, Hg⟩, Ho, ⟨%d0, H0⟩, ⟨%d1, H1⟩, ⟨%d2, H2⟩, ⟨%d3, H3⟩⟩
    iapply ((pointRest V c t h0 _).2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [HA HB HC HD HS Hg]
    · isplitl [HA HB HC HD HS]
      · isplitl [HA]; · iexact HA
        isplitl [HB]; · iexact HB
        isplitl [HC]; · iexact HC
        isplitl [HD]; · iexact HD
        iexact HS
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverRest_out V c t h0 _)

/-- The library's body obligation, at every point. -/
theorem mbody_obligation (c : Dev nD) : BodyObligation (mdat (F := F) V c) (defs₀ (F := F)) Variants.none () Set.univ := fun t => by
  rw [bigSep_W1, bigSep_W1]
  exact sound_mbody V c t

/-- What the launch hands the region is the invariant before the first point. -/
theorem mhin (c : Dev nD) : Pipeline.ΦA spec1 c ⊢ (mdat V c).Φ 0 := by
  rw [show (mdat V c).Φ 0 = PhiS V c 0 (Nat.zero_le _) from rfl, PhiS_zero V c 0 _ rfl]
  try exact Idealize.SL.BI.Entails.refl _

/-- After any point but the first the invariant gives the launch's back: the scratch's named contents are forgotten. -/
theorem mPhi_out (c : Dev nD) (t : Fin (cfg1.N + 1)) (ht : t.val ≠ 0) : (mdat V c).Φ t ⊢ Pipeline.ΦA spec1 c := by
  rw [show (mdat V c).Φ t = PhiS V c t.val (Nat.le_of_lt_succ t.isLt) from rfl, PhiS_pos V c _ _ ht, PhiA1_eq]
  iintro ⟨⟨HA, HB, HC, HD, HS⟩, Hg⟩
  isplitl [HA HB HC HD HS]
  · isplitl [HA]; · iexact HA
    isplitl [HB]; · iexact HB
    isplitl [HC]; · iexact HC
    isplitl [HD]; · iexact HD
    iexists _; iexact HS
  iexact Hg

/-- The same after the last point. -/
theorem mhout (c : Dev nD) : (mdat V c).Φ (Fin.last cfg1.N) ⊢ Pipeline.ΦA spec1 c :=
  mPhi_out V c _ (by rw [Fin.val_last]; have : cfg1.N = 128 := N_1; omega)

end

end Cert.KernelIdeal.Run

end
-- ==== Proof.KI.WholeRun.lean ====
/-
  The whole program's run, at any float instance: @main is the weight-quantization region, two host reshapes, the
  product region, one host reshape.

  The contents of core `c`'s unscoped buffers at each boundary are a fold from the launch memory: a region replaces
  its windows' arrays by what its write-backs leave (an input array is left as it was, an output array is the
  pipeline's fold of the blocks written back) and leaves every other buffer alone; a host stretch applies its
  operations. Each region is a segment entered from "every unscoped buffer at the boundary's contents, the generator
  register at some state, nothing owed" and left at the same with the next boundary's contents; the host stretches
  are segments over their operation lists. The run then says that every weakly fair execution of @main terminates
  without a fault and that EVERY unscoped buffer ends at the last boundary's contents. Read at the three argument
  arrays, which no operation and no region writes, this is the frame claim; read at the result buffer it is the
  kernel's value.
-/
import proofs.«106305_j798863917295_2_alg».proof.Proof.KI.WeightRegion
import proofs.«106305_j798863917295_2_alg».proof.Proof.KI.ProductRegion

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (wdat (V0 m ρ) c).arrAt w cfg0.N
theorem W1_arr (c : Dev nD) (w : Fin cfg0.W) :
    W1 m ρ c (Proc.devRef .tc (Pipeline.arrRef spec0 w)) = (wdat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (wdat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (mdat (V2 m ρ) c).arrAt w cfg1.N
theorem W3_arr (c : Dev nD) (w : Fin cfg1.W) :
    W3 m ρ c (Proc.devRef .tc (Pipeline.arrRef spec1 w)) = (mdat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (mdat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last reshape (the end). -/
abbrev W4 : Dev nD → Valuation τ sig (Elt F) := fun c => StableHlo.after hostOps2 (W3 m ρ c)

/-! ## The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 0).trans (((wdat (V0 m ρ) c).arrAt_in 0 rfl _).trans (wA_eq (V0 m ρ) c 0))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => wdat (V0 m ρ) c
  | ⟨1, _⟩ => fun c => mdat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the
    contents after it. Its arrays are split out of the unscoped buffers and put back at what the write-backs leave;
    the generator register goes into the region's invariant and comes back; nothing owed; no semaphore of the
    kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (wbody_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at what the write-backs leave;
    the generator register goes into the region's invariant and comes back; nothing owed; no semaphore of the
    kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (mbody_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (mhin (V2 m ρ) c)
    unfold Pipeline.ΦA
    iintro ⟨Hp, -, Hr⟩
    isplitl [Hr]; · iexact Hr
    iexact Hp
  hout c := by
    rw [Pipeline.ownSems0_none]
    refine (mhout (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .region (reg0 m ρ),
    .host (hseg hostOps1 hostOps1_sub ops1_fresh (W1 m ρ)),
    .region (reg1 m ρ),
    .host (hseg hostOps2 hostOps2_sub ops2_fresh (W3 m ρ)) ]
/-- @main IS the run of the segments. -/
theorem main_run (c : Dev nD) : main (F := F) c = Pipeline.Seg.run (segs m ρ) :=
  main_segs adm (pdats m ρ) () 𝒱₀ L lv _ _ (reg0 m ρ) (reg1 m ρ) rfl rfl c

set_option backward.isDefEq.respectTransparency.types false in
/-- THE RUN: from any memory with zero counters every weakly fair execution of @main on the TensorCores terminates,
    nothing faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Run

end
-- ==== Proof.KI.StoredValues.lean ====
/-
  What each body's stores leave, as the skeleton's payloads of the blocks the body loaded.

  Every store of both kernels goes through the whole-buffer rectangle at zero offsets, and every load too, so one
  store leaves exactly its payload and a load reads exactly the buffer:
  * the weight body leaves `k0_pay1` of its input block in the output buffer;
  * a first-column point of the product body leaves `k1_pay1` of the activation block in the scratch, and in the
    output buffer `k1_pay2` of THAT value (the scratch is read back after the store), the weight block and the bias
    block;
  * a later-column point leaves `k1_pay2` of the scratch as it found it, the weight block and the bias block.
-/
import proofs.«106305_j798863917295_2_alg».proof.Proof.KI.WeightRegion
import proofs.«106305_j798863917295_2_alg».proof.Proof.KI.ProductRegion
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem zeroOffsets : (![0, 0] : Fin 2 → Nat) = fun _ => 0 := funext fun a => by fin_cases a <;> rfl

/-- The weight body's one store leaves its payload of the input block. -/
theorem wout_eq (x0 : Vec F S256x4096 .f32) : wout x0 = k0_pay1 x0 := by
  unfold wout
  rw [View.canon_unit_zero zeroOffsets]
  simp only [View.ld_unit_zero (S := S256x4096) zeroOffsets]

/-- A first-column point leaves the quantized activation block in the scratch. -/
theorem scrFirst_eq (c : Dev nD) (t : Fin cfg1.N) (h : t.val % 4 = 0) :
    scrFirst V c t h = k1_pay1 (mblk V c 0 t) := by
  unfold scrFirst
  rw [View.read_writes_eq_canon _ _ _ (coverFirst_scr V c t h)]
  unfold pointFirst runFirst
  dsimp only
  sl_unfold_words
  rw [View.canon_unit_zero zeroOffsets]
  simp only [View.readAt_eq_ld, Memref.IsWhole.read_unread, View.ld_unit_zero (S := S256x4096) zeroOffsets]

/-- A first-column point leaves in the output buffer the dense step of that quantized block. -/
theorem outFirst_eq (c : Dev nD) (t : Fin cfg1.N) (h : t.val % 4 = 0) :
    outFirst V c t h = k1_pay2 (k1_pay1 (mblk V c 0 t)) (mblk V c 1 t) (mblk V c 2 t) := by
  unfold outFirst
  rw [View.read_writes_eq_canon _ _ _ (coverFirst_out V c t h)]
  unfold pointFirst runFirst
  dsimp only
  sl_unfold_words
  rw [View.canon_unit_zero zeroOffsets, View.readCov_unit_zero _ zeroOffsets]
  simp only [View.readAt_eq_ld, Memref.IsWhole.read_unread, View.ld_unit_zero (S := S256x4096) zeroOffsets,
    View.ld_unit_zero (S := S4096x1024) zeroOffsets, View.ld_unit_zero (S := S1x1024) zeroOffsets]

/-- A later-column point leaves in the output buffer the dense step of the scratch as it found it. -/
theorem outRest_eq (c : Dev nD) (t : Fin cfg1.N) (h : ¬t.val % 4 = 0) (xs : Vec F S256x4096 .bf16) :
    outRest V c t h xs = k1_pay2 xs (mblk V c 1 t) (mblk V c 2 t) := by
  unfold outRest
  rw [View.read_writes_eq_canon _ _ _ (coverRest_out V c t h xs)]
  unfold pointRest runRest
  dsimp only
  rw [View.canon_unit_zero zeroOffsets]
  simp only [View.readAt_eq_ld, Memref.IsWhole.read_unread, View.ld_unit_zero (S := S256x4096) zeroOffsets,
    View.ld_unit_zero (S := S4096x1024) zeroOffsets, View.ld_unit_zero (S := S1x1024) zeroOffsets]
  have e : View.read (Elt F) (scM : Memref sig .tc .vmem S256x4096 .bf16).view
      ((Memref.isWhole_whole _ : (scM : Memref sig .tc .vmem S256x4096 .bf16).IsWhole).unread xs) = xs :=
    Memref.IsWhole.read_unread _ xs
  exact congrArg (fun z => k1_pay2 z (mblk V c 1 t) (mblk V c 2 t)) e

end

end Cert.KernelIdeal.Run

end
-- ==== Proof.KI.BlockReads.lean ====
/-
  Each window's block at a grid point, entry by entry, as entries of the window's array.

  A block's element sits in the array, on each axis, at (block index) × (block size) + (its coordinate in the block).
  The printed index maps are decided once over each grid:
  * weight region, 16 points: the input block at point t is rows 256·t … of the weight matrix (all columns); the
    output block is columns 256·t … of the transposed result (all rows);
  * product region, 128 points walked row-major, t = (i, j) = (t / 4, t % 4): the activation block is rows 256·i …;
    the weight block and the bias block are columns 1024·j …; the output block is rows 256·i …, columns 1024·j ….
-/
import proofs.«106305_j798863917295_2_alg».proof.Proof.KI.WeightRegion
import proofs.«106305_j798863917295_2_alg».proof.Proof.KI.ProductShared
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The weight region's index maps over its grid. -/
theorem windex : ∀ t : Fin cfg0.N, win0_0.index t 0 = t.val ∧ win0_0.index t 1 = 0 ∧ win0_1.index t 0 = 0 ∧ win0_1.index t 1 = t.val :=
  (by decide +kernel : ∀ t : Fin grid0.N, win0_0.index t 0 = t.val ∧ win0_0.index t 1 = 0 ∧ win0_1.index t 0 = 0 ∧ win0_1.index t 1 = t.val)

/-- The product region's index maps over its grid. -/
theorem mindex : ∀ t : Fin cfg1.N, win1_0.index t 0 = t.val / 4 ∧ win1_0.index t 1 = 0
    ∧ win1_1.index t 0 = 0 ∧ win1_1.index t 1 = t.val % 4
    ∧ win1_2.index t 0 = 0 ∧ win1_2.index t 1 = t.val % 4
    ∧ win1_3.index t 0 = t.val / 4 ∧ win1_3.index t 1 = t.val % 4 :=
  (by decide +kernel : ∀ t : Fin grid1.N, win1_0.index t 0 = t.val / 4 ∧ win1_0.index t 1 = 0
    ∧ win1_1.index t 0 = 0 ∧ win1_1.index t 1 = t.val % 4
    ∧ win1_2.index t 0 = 0 ∧ win1_2.index t 1 = t.val % 4
    ∧ win1_3.index t 0 = t.val / 4 ∧ win1_3.index t 1 = t.val % 4)

/-- The weight region's input block at point `t` is rows `256 t …` of the weight matrix. -/
theorem wblk_at (c : Dev nD) (t : Fin cfg0.N) (x : S256x4096.Idx) (k : S4096x4096.Idx)
    (hk0 : (k 0).val = 256 * t.val + (x 0).val) (hk1 : (k 1).val = (x 1).val) :
    (wblk V c 0 t : Vec F S256x4096 .f32) x = (V c main_arg1 : S4096x4096.Idx → Elt F .f32) k := by
  obtain ⟨h0, h1, -, -⟩ := windex t
  unfold wblk
  rw [View.read_apply]
  show V c main_arg1 _ = V c main_arg1 _
  congr 1
  funext a
  apply Fin.ext
  match a with
  | ⟨0, _⟩ => show win0_0.index t 0 * 256 + 1 * (x 0).val = (k 0).val; rw [h0, hk0]; omega
  | ⟨1, _⟩ => show win0_0.index t 1 * 4096 + 1 * (x 1).val = (k 1).val; rw [h1, hk1]; omega

/-- The product region's activation block at point `t` is rows `256 (t / 4) …` of the activations. -/
theorem mblk0_at (c : Dev nD) (t : Fin cfg1.N) (x : S256x4096.Idx) (k : S8192x4096.Idx)
    (hk0 : (k 0).val = 256 * (t.val / 4) + (x 0).val) (hk1 : (k 1).val = (x 1).val) :
    (mblk V c 0 t : Vec F S256x4096 .f32) x = (V c main_v1 : S8192x4096.Idx → Elt F .f32) k := by
  obtain ⟨h0, h1, -⟩ := mindex t
  unfold mblk
  rw [View.read_apply]
  show V c main_v1 _ = V c main_v1 _
  congr 1
  funext a
  apply Fin.ext
  match a with
  | ⟨0, _⟩ => show win1_0.index t 0 * 256 + 1 * (x 0).val = (k 0).val; rw [h0, hk0]; omega
  | ⟨1, _⟩ => show win1_0.index t 1 * 4096 + 1 * (x 1).val = (k 1).val; rw [h1, hk1]; omega

/-- Its weight block is columns `1024 (t % 4) …` of the quantized weights. -/
theorem mblk1_at (c : Dev nD) (t : Fin cfg1.N) (x : S4096x1024.Idx) (k : S4096x4096.Idx)
    (hk0 : (k 0).val = (x 0).val) (hk1 : (k 1).val = 1024 * (t.val % 4) + (x 1).val) :
    (mblk V c 1 t : Vec F S4096x1024 .bf16) x = (V c main_v0 : S4096x4096.Idx → Elt F .bf16) k := by
  obtain ⟨-, -, h0, h1, -⟩ := mindex t
  unfold mblk
  rw [View.read_apply]
  show V c main_v0 _ = V c main_v0 _
  congr 1
  funext a
  apply Fin.ext
  match a with
  | ⟨0, _⟩ => show win1_1.index t 0 * 4096 + 1 * (x 0).val = (k 0).val; rw [h0, hk0]; omega
  | ⟨1, _⟩ => show win1_1.index t 1 * 1024 + 1 * (x 1).val = (k 1).val; rw [h1, hk1]; omega

/-- Its bias block is columns `1024 (t % 4) …` of the bias row. -/
theorem mblk2_at (c : Dev nD) (t : Fin cfg1.N) (x : S1x1024.Idx) (k : S1x4096.Idx)
    (hk0 : (k 0).val = (x 0).val) (hk1 : (k 1).val = 1024 * (t.val % 4) + (x 1).val) :
    (mblk V c 2 t : Vec F S1x1024 .f32) x = (V c main_v2 : S1x4096.Idx → Elt F .f32) k := by
  obtain ⟨-, -, -, -, h0, h1, -⟩ := mindex t
  unfold mblk
  rw [View.read_apply]
  show V c main_v2 _ = V c main_v2 _
  congr 1
  funext a
  apply Fin.ext
  match a with
  | ⟨0, _⟩ => show win1_2.index t 0 * 1 + 1 * (x 0).val = (k 0).val; rw [h0, hk0]; omega
  | ⟨1, _⟩ => show win1_2.index t 1 * 1024 + 1 * (x 1).val = (k 1).val; rw [h1, hk1]; omega

end

end Cert.KernelIdeal.Run

end
-- ==== Proof.BitLinearSpec.lean ====
/-
  The value both programs compute, as ONE function of the three argument arrays on the extended reals.

  A BitLinear layer: the weight matrix `w : [4096, 4096]` (rows = output features) is quantized row by row to the
  ternary values {-1, 0, 1} against the row's mean absolute value, the activations `x : [4, 2048, 4096]` token by
  token to the integers of [-127, 127] against the token's largest absolute value over 127; both scales are floored
  at the f32 nearest to 1e-5; each quantized value is scaled back, and the layer is the dense product of the two
  de-quantized operands over the 4096 input features, plus the bias:

      out(b, s, o) = Σ_k  xDeq(b, s, k) · wDeq(o, k)  +  bias(o).

  Every scalar operation is the exact one on the extended reals (`Ideal.div`, round-half-to-even lifted to the
  infinities, `max`, `min`, `·`, `+`), and every literal is the exact value of its f32 word, written as the
  word so that the same word on the two sides is never evaluated.
-/
import Idealize.ShloMosaic.PureOps.Ideal
import Idealize.ShloMosaic.PureOps.Ideal.Laws
import Idealize.ShloMosaic.Lib.ValueIdx

noncomputable section

namespace Cert.BitLinear

open Idealize.ShloMosaic Idealize.ShloMosaic.ValueIdx

/-- The floor of both scales: the f32 nearest to 1e-5, at its exact binary value. -/
def floorEps : EReal := Ideal.ofBits .f32 0x3727C5AC#32

/-- `|v|` on the extended reals. -/
def absE (v : EReal) : EReal := max v (-v)

/-- A value `v` quantized against the scale `s` into `[lo, hi]` and scaled back:
    `clip(round_half_even(v / s), lo, hi) · s`. -/
def requant (lo hi s v : EReal) : EReal :=
  min hi (max lo (Ideal.liftRound Ideal.roundHalfEven (Ideal.div v s))) * s

/-- A row's weight scale: the mean of its 4096 absolute values (their sum over the f32 4096), floored. -/
def meanScale (f : Fin 4096 → EReal) : EReal :=
  max floorEps (Ideal.div (∑ i : Fin 4096, absE (f i)) (Ideal.ofBits .f32 0x45800000#32))

/-- A row's activation scale: the largest of its 4096 absolute values — the maximum taken from `-inf` — over the
    f32 127, floored. -/
def maxScale (f : Fin 4096 → EReal) : EReal :=
  max floorEps (Ideal.div ((Finset.univ : Finset (Fin 4096)).fold max (Ideal.ofBits .f32 0xFF800000#32) (fun i => absE (f i)))
    (Ideal.ofBits .f32 0x42FE0000#32))

/-- A weight entry `v` of a row `f` as the ternary value scaled back. -/
def ternary (f : Fin 4096 → EReal) (v : EReal) : EReal :=
  requant (Ideal.ofBits .f32 0xBF800000#32) (Ideal.ofBits .f32 0x3F800000#32) (meanScale f) v

/-- An activation `v` of a token's row `f` as the int8 value scaled back. -/
def int8 (f : Fin 4096 → EReal) (v : EReal) : EReal :=
  requant (Ideal.ofBits .f32 0xC2FE0000#32) (Ideal.ofBits .f32 0x42FE0000#32) (maxScale f) v

/-- Row `o`'s weight scale. -/
def wScale (w : (⟨2, ![4096, 4096]⟩ : Shape).Idx → EReal) (o : Fin 4096) : EReal :=
  meanScale (fun i => w (ix2 o i))

/-- The ternary weight, scaled back. -/
def wDeq (w : (⟨2, ![4096, 4096]⟩ : Shape).Idx → EReal) (o k : Fin 4096) : EReal :=
  ternary (fun i => w (ix2 o i)) (w (ix2 o k))

/-- Token `(b, s)`'s activation scale. -/
def xScale (x : (⟨3, ![4, 2048, 4096]⟩ : Shape).Idx → EReal) (b : Fin 4) (s : Fin 2048) : EReal :=
  maxScale (fun k => x (ix3 b s k))

/-- The int8 activation, scaled back. -/
def xDeq (x : (⟨3, ![4, 2048, 4096]⟩ : Shape).Idx → EReal) (b : Fin 4) (s : Fin 2048) (k : Fin 4096) : EReal :=
  int8 (fun i => x (ix3 b s i)) (x (ix3 b s k))

/-- The layer at token `(b, s)` and output feature `o`. -/
def outAt (x : (⟨3, ![4, 2048, 4096]⟩ : Shape).Idx → EReal) (w : (⟨2, ![4096, 4096]⟩ : Shape).Idx → EReal)
    (bias : (⟨1, ![4096]⟩ : Shape).Idx → EReal) (b : Fin 4) (s : Fin 2048) (o : Fin 4096) : EReal :=
  (∑ k : Fin 4096, xDeq x b s k * wDeq w o k) + bias (ix1 o)

/-- The whole result array. -/
def out (x : (⟨3, ![4, 2048, 4096]⟩ : Shape).Idx → EReal) (w : (⟨2, ![4096, 4096]⟩ : Shape).Idx → EReal)
    (bias : (⟨1, ![4096]⟩ : Shape).Idx → EReal) : (⟨3, ![4, 2048, 4096]⟩ : Shape).Idx → EReal :=
  fun j => outAt x w bias (j 0) (j 1) (j 2)

theorem out_ix3 (x : (⟨3, ![4, 2048, 4096]⟩ : Shape).Idx → EReal) (w : (⟨2, ![4096, 4096]⟩ : Shape).Idx → EReal)
    (bias : (⟨1, ![4096]⟩ : Shape).Idx → EReal) (b : Fin 4) (s : Fin 2048) (o : Fin 4096) :
    out x w bias (ix3 b s o) = outAt x w bias b s o := rfl

end Cert.BitLinear

end
-- ==== Proof.LibProductIx.lean ====
/-
  A matrix product read at an entry, with the operand indices written by their coordinates.

  Two arrangements of dimension numbers, no batch axis in either:
  * [A, K] × [K, B] → [A, B], contracting the left factor's axis 1 with the right factor's axis 0:
    the sum over the contraction index at (p, q) is Σ_{k<K} l(p, k) · r(k, q);
  * [A, S, K] × [B, K] → [A, S, B], contracting the left factor's last axis with the right factor's axis 1 (the
    right factor used by rows: x · Wᵀ on every row of a stack of rows): the sum at (a, s, b) is
    Σ_{k<K} l(a, s, k) · r(b, k).
  So a product into a zero accumulator or a host dot_general is that sum, and reads one row of each factor.
  General: nothing here depends on a particular program. An instance supplies the kept coordinates (`hl0`, `hr1`, …: each is
  `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.LibProductIx

open Idealize.ShloMosaic Idealize.ShloMosaic.ValueIdx

/-- [A, K] × [K, B]: the sum over the contraction index at (p, q) is Σ_k l(p, k) · r(k, q). -/
theorem sum_rows_cols {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 (ix2 p q) _
      | ⟨1, _⟩ => exact (d.lhsIdx_val_of_single hlc (ix2 p q) _).trans hk)
  have er : d.rhsIdx (ix2 p q) ((contrEquiv1 d K hr hs).symm k) = ix2 k q :=
    funext fun a => Fin.ext (by
      match a with
      | ⟨0, _⟩ => exact (d.rhsIdx_val_of_single hrc (ix2 p q) _).trans hk
      | ⟨1, _⟩ => exact hr1 (ix2 p q) _)
  rw [el, er]

/-- [A, S, K] × [B, K]: the sum over the contraction index at (a, s, b) is Σ_k l(a, s, k) · r(b, k). -/
theorem sum_stack_rows {A S B K : Nat} {φ₁ φ₂ : FTy}
    (d : DotDims (⟨3, ![A, S, K]⟩ : Shape) (⟨2, ![B, K]⟩ : Shape) (⟨3, ![A, S, B]⟩ : Shape))
    (hr : d.contr.rank = 1) (hs : d.contr.size ⟨0, by omega⟩ = K)
    (hlc : d.lhsContracting = [(2 : Fin 3)]) (hrc : d.rhsContracting = [(1 : Fin 2)])
    (hl0 : ∀ (j : (⟨3, ![A, S, B]⟩ : Shape).Idx) (q : d.contr.Idx), (d.lhsIdx j q 0).val = (j 0).val)
    (hl1 : ∀ (j : (⟨3, ![A, S, B]⟩ : Shape).Idx) (q : d.contr.Idx), (d.lhsIdx j q 1).val = (j 1).val)
    (hr0 : ∀ (j : (⟨3, ![A, S, B]⟩ : Shape).Idx) (q : d.contr.Idx), (d.rhsIdx j q 0).val = (j 2).val)
    (l : FVec Ideal (⟨3, ![A, S, K]⟩ : Shape) φ₁) (r : FVec Ideal (⟨2, ![B, K]⟩ : Shape) φ₂) (a : Fin A) (s : Fin S) (b : Fin B) :
    ∑ c : d.contr.Idx, l (d.lhsIdx (ix3 a s b) c) * r (d.rhsIdx (ix3 a s b) c) = ∑ k : Fin K, l (ix3 a s k) * r (ix2 b k) := by
  rw [← Equiv.sum_comp (contrEquiv1 d K hr hs).symm]
  refine Finset.sum_congr rfl fun k _ => ?_
  have hk := contrEquiv1_symm_val d K hr hs k
  have el : d.lhsIdx (ix3 a s b) ((contrEquiv1 d K hr hs).symm k) = ix3 a s k :=
    funext fun c => Fin.ext (by
      match c with
      | ⟨0, _⟩ => exact hl0 (ix3 a s b) _
      | ⟨1, _⟩ => exact hl1 (ix3 a s b) _
      | ⟨2, _⟩ => exact (d.lhsIdx_val_of_single hlc (ix3 a s b) _).trans hk)
  have er : d.rhsIdx (ix3 a s b) ((contrEquiv1 d K hr hs).symm k) = ix2 b k :=
    funext fun c => Fin.ext (by
      match c with
      | ⟨0, _⟩ => exact hr0 (ix3 a s b) _
      | ⟨1, _⟩ => exact (d.rhsIdx_val_of_single hrc (ix3 a s b) _).trans hk)
  rw [el, er]

end Cert.LibProductIx

end
-- ==== Proof.LibPlainDot.lean ====
/-
  A product of two matrices whose dimension numbers are the plain ones — no batch axis, the left factor's axis 1
  contracted with the right factor's axis 0, the kept axes the left factor's rows and the right factor's columns —
  read at an entry (p, q): into the zero accumulator it is Σ_k l(p,k) · r(k,q). The two facts a reading needs about
  the kept coordinates (the left factor is read in row p, the right factor in column q) are proved here once from the
  dimension numbers' lists, for any record with those lists.
  General: nothing here depends on a particular program.
-/
import proofs.«106305_j798863917295_2_alg».proof.Proof.LibProductIx

noncomputable section

open scoped BigOperators

namespace Cert.LibPlainDot

open Idealize.ShloMosaic Idealize.ShloMosaic.ValueIdx

variable {A B K : Nat}

/-- The left factor is read in the row of the result's entry. -/
theorem lhs_row (d : DotDims (⟨2, ![A, K]⟩ : Shape) (⟨2, ![K, B]⟩ : Shape) (⟨2, ![A, B]⟩ : Shape))
    (hlb : d.lhsBatch = []) (hln : d.lhsNonContracting = [(0 : Fin 2)])
    (j : (⟨2, ![A, B]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln])

/-- The right factor is read in the column of the result's entry. -/
theorem rhs_col (d : DotDims (⟨2, ![A, K]⟩ : Shape) (⟨2, ![K, B]⟩ : Shape) (⟨2, ![A, B]⟩ : Shape))
    (hlb : d.lhsBatch = []) (hln : d.lhsNonContracting = [(0 : Fin 2)])
    (hrb : d.rhsBatch = []) (hrn : d.rhsNonContracting = [(1 : Fin 2)])
    (j : (⟨2, ![A, B]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln, hrn])

/-- The contraction sum of a plain product at (p, q). -/
theorem sum_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) :=
  Cert.LibProductIx.sum_rows_cols d hr hs hlc hrc (lhs_row d hlb hln) (rhs_col d hlb hln hrb hrn) l r p q

/-- A plain product into the zero accumulator, at (p, q). -/
theorem matmul_zero_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (⟨2, ![A, B]⟩ : Shape) .f32 0x00000000#32) (ix2 p q)
      = ∑ k : Fin K, l (ix2 p k) * r (ix2 k q) := by
  rw [Ideal.matmul_constant_zero_apply]
  exact sum_at d hr hs hlc hrc hlb hln hrb hrn l r p q

/-- A host product with the plain dimension numbers, at (p, q). -/
theorem dotGeneral_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision) (sched : HostSchedule)
    (l : FVec Ideal (⟨2, ![A, K]⟩ : Shape) φ₁) (r : FVec Ideal (⟨2, ![K, B]⟩ : Shape) φ₂) (p : Fin A) (q : Fin B) :
    FloatOps.dotGeneral d prec sched l r (ix2 p q) = ∑ k : Fin K, l (ix2 p k) * r (ix2 k q) := by
  rw [Ideal.dotGeneral_apply]
  exact sum_at d hr hs hlc hrc hlb hln hrb hrn l r p q

end Cert.LibPlainDot

end
-- ==== Proof.LibColumn.lean ====
/-
  A vector as a one-column matrix, read at an index. An array of `a` entries recast to `a` rows of one column holds at
  row `p` (whatever the column coordinate, which can only be 0) the operand's entry `p`: row-major order counts the same
  entries in the same order on both sides.
-/
import Idealize.ShloMosaic.Lib.Pipeline.Value
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.PayloadsAt.lean ====
/-
  The three block computations of the BitLinear kernel, read at one entry, on the extended reals.

  * The weight block: from a [256, 4096] block of weight rows, the entry (k, r) of the transposed [4096, 256] result is
    the ternary value of the weight at row r, column k: that weight divided by its row's scale, rounded half to even,
    clipped to [-1, 1] and multiplied by the scale again, where the scale is the row's sum of absolute values over 4096,
    floored. The transposition only exchanges the two coordinates.
  * The activation block: from a [256, 4096] block of tokens, the entry (r, k) is the int8 value of the activation at
    (r, k): divided by its token's scale, rounded, clipped to [-127, 127] and multiplied by the scale again, where the
    scale is the token's largest absolute value (the maximum taken from -inf) over 127, floored.
  * The dense step: the product of a [256, 4096] block with a [4096, 1024] block into the zero accumulator, plus a
    [1, 1024] bias row repeated on every row, is at (r, q) the sum over k of l(r, k) · w(k, q), plus the bias at q.

  Every operation but five acts entry by entry, so the index passes through it. The five that do not are read at an index
  each by its own law: a reduction over the columns is the sum (or the fold of max) over the 4096 column coordinates of
  the row; a [256] array seen as one column holds at row r its entry r; one column repeated over 4096 columns holds at
  (r, k) the column's entry r; a transposed matrix holds at (k, r) the entry (r, k); a plain product into zero is the
  sum of the products over the contracted coordinate; one row repeated over 256 rows holds at (r, q) the row's entry q.
  A cast of an array to its own shape, and a change of format, leave every entry as it is.
-/
import proofs.«106305_j798863917295_2_alg».proof.Proof.Gen.KernelIdeal.Skeleton
import proofs.«106305_j798863917295_2_alg».proof.Proof.BitLinearSpec
import proofs.«106305_j798863917295_2_alg».proof.Proof.LibPlainDot
import proofs.«106305_j798863917295_2_alg».proof.Proof.LibColumn
import proofs.«106305_j798863917295_2_alg».proof.Proof.LibLayout
import Idealize.ShloMosaic.Lib.ValueLayout

noncomputable section

namespace Cert.KernelIdeal.Payload

open Cert.KernelIdeal Cert.KernelIdeal.Gen Cert.BitLinear Idealize.ShloMosaic Idealize.ShloMosaic.ValueIdx

/-! ## Two entrywise operations at an index -/

/-- Rounding to the nearest integer, ties to even, acts entry by entry. -/
theorem roundeven_apply {s : Shape} {φ : FTy} (x : FVec Ideal s φ) (i : s.Idx) :
    roundeven x i = Ideal.liftRound Ideal.roundHalfEven (x i) := rfl

/-- The absolute value acts entry by entry, and |v| = max v (-v). -/
theorem absf_apply {s : Shape} {φ : FTy} (x : FVec Ideal s φ) (i : s.Idx) :
    absf x i = absE (x i) := rfl

/-! ## The reductions over the columns of a [256, 4096] block, at a row -/

/-- The index a reduction over the columns reads: row r with the column i put back is (r, i). -/
theorem lift_row (r : Fin 256) (i : Fin 4096) :
    reduces_S256x4096_S256.lift (ix1 r) i = ix2 r i :=
  funext fun a => match a with | ⟨0, _⟩ => rfl | ⟨1, _⟩ => rfl

/-- The sum over the columns, at row r, is the sum of the row's 4096 entries. -/
theorem rowSum_at (src : FVec Ideal S256x4096 .f32) (hφ : FKind.Formats .f32)
    (hacc : (0x00000000#32 : BitVec 32) = FKind.add.neutral .f32 hφ) (r : Fin 256) :
    multiReduction (F := Ideal) .add [1] S256 src 0x00000000#32 reduces_S256x4096_S256 hφ hacc (ix1 r)
      = ∑ i : Fin 4096, src (ix2 r i) := by
  refine (Ideal.multiReduction_add_single src 0x00000000#32 reduces_S256x4096_S256 hφ hacc (ix1 r)).trans ?_
  exact Finset.sum_congr rfl fun i _ => congrArg src (lift_row r i)

/-- The maximum over the columns taken from -inf, at row r, is the fold of max over the row's 4096 entries. -/
theorem rowMax_at (src : FVec Ideal S256x4096 .f32) (hφ : FKind.Formats .f32)
    (hacc : (0xFF800000#32 : BitVec 32) = FKind.maximumf.neutral .f32 hφ) (r : Fin 256) :
    multiReduction (F := Ideal) .maximumf [1] S256 src 0xFF800000#32 reduces_S256x4096_S256 hφ hacc (ix1 r)
      = (Finset.univ : Finset (Fin 4096)).fold max (Ideal.ofBits .f32 0xFF800000#32) (fun i => src (ix2 r i)) := by
  refine (Ideal.multiReduction_maximumf_single src 0xFF800000#32 reduces_S256x4096_S256 hφ hacc (ix1 r)).trans ?_
  exact congrArg (fun f => (Finset.univ : Finset (Fin 4096)).fold max (Ideal.ofBits .f32 0xFF800000#32) f)
    (funext fun i => congrArg src (lift_row r i))

/-- A row's sum of absolute values. -/
theorem rowAbsSum_at (x : FVec Ideal S256x4096 .f32) (hφ : FKind.Formats .f32)
    (hacc : (0x00000000#32 : BitVec 32) = FKind.add.neutral .f32 hφ) (r : Fin 256) :
    multiReduction (F := Ideal) .add [1] S256 (absf x) 0x00000000#32 reduces_S256x4096_S256 hφ hacc (ix1 r)
      = ∑ i : Fin 4096, absE (x (ix2 r i)) :=
  rowSum_at (absf x) hφ hacc r

/-- A row's largest absolute value, the maximum taken from -inf. -/
theorem rowAbsMax_at (x : FVec Ideal S256x4096 .f32) (hφ : FKind.Formats .f32)
    (hacc : (0xFF800000#32 : BitVec 32) = FKind.maximumf.neutral .f32 hφ) (r : Fin 256) :
    multiReduction (F := Ideal) .maximumf [1] S256 (absf x) 0xFF800000#32 reduces_S256x4096_S256 hφ hacc (ix1 r)
      = (Finset.univ : Finset (Fin 4096)).fold max (Ideal.ofBits .f32 0xFF800000#32) (fun i => absE (x (ix2 r i))) :=
  rowMax_at (absf x) hφ hacc r

/-! ## The three blocks at an entry -/

/-- The weight block: entry (k, r) of the transposed result is the ternary value, scaled back, of the weight at row r,
    column k, against row r's mean absolute value. -/
theorem weightBlock_at (v0 : FVec Ideal S256x4096 .f32) (k : Fin 4096) (r : Fin 256) :
    k0_pay1 (F := Ideal) v0 (ix2 k r) = ternary (fun i => v0 (ix2 r i)) (v0 (ix2 r k)) := by
  unfold k0_pay1
  -- the format change keeps the entry; the transposed matrix at (k, r) is the matrix at (r, k)
  rw [truncf_apply, transpose_ix2_apply]
  -- the entrywise operations, the repeated column and the one-column cast, at (r, k)
  simp only [mulf_apply, minimumf_apply, maximumf_apply, roundeven_apply, divf_apply,
    broadcast_apply, broadcastTo_a1_ab_apply, shapeCast_a_a1_apply, Ideal.ofBits_def]
  -- what is left is the quantized value over the scale built on the row's sum of absolute values
  exact congrArg
    (fun m => requant (Ideal.ofBits .f32 0xBF800000#32) (Ideal.ofBits .f32 0x3F800000#32)
      (max floorEps (Ideal.div m (Ideal.ofBits .f32 0x45800000#32))) (v0 (ix2 r k)))
    (rowAbsSum_at v0 _ _ r)

/-- The activation block: entry (r, k) is the int8 value, scaled back, of the activation at (r, k), against token r's
    largest absolute value over 127. -/
theorem actBlock_at (v12 : FVec Ideal S256x4096 .f32) (r : Fin 256) (k : Fin 4096) :
    k1_pay1 (F := Ideal) v12 (ix2 r k) = int8 (fun i => v12 (ix2 r i)) (v12 (ix2 r k)) := by
  unfold k1_pay1
  -- the two casts of a block to its own shape are the identity
  rw [shapeCast_self, shapeCast_self]
  -- the entrywise operations, the repeated column and the one-column cast, at (r, k)
  simp only [truncf_apply, mulf_apply, minimumf_apply, maximumf_apply, roundeven_apply, divf_apply, broadcast_apply,
    broadcastTo_a1_ab_apply, shapeCast_a_a1_apply, Ideal.ofBits_def]
  -- what is left is the quantized value over the scale built on the row's largest absolute value
  exact congrArg
    (fun m => requant (Ideal.ofBits .f32 0xC2FE0000#32) (Ideal.ofBits .f32 0x42FE0000#32)
      (max floorEps (Ideal.div m (Ideal.ofBits .f32 0x42FE0000#32))) (v12 (ix2 r k)))
    (rowAbsMax_at v12 _ _ r)

/-- The dense step: entry (r, q) is the sum over the 4096 contracted coordinates of the products, plus the bias at q. -/
theorem dense_at (v3 : FVec Ideal S256x4096 .bf16) (v4 : FVec Ideal S4096x1024 .bf16) (v7 : FVec Ideal S1x1024 .f32)
    (r : Fin 256) (q : Fin 1024) :
    k1_pay2 (F := Ideal) v3 v4 v7 (ix2 r q) = (∑ k : Fin 4096, v3 (ix2 r k) * v4 (ix2 k q)) + v7 (ix2 0 q) := by
  unfold k1_pay2
  -- the sum of two arrays at an entry; the casts to the same shape are the identity; the repeated row at (r, q)
  rw [addf_apply, shapeCast_self, shapeCast_self, broadcastTo_1b_ab_apply]
  -- the product into the zero accumulator at (r, q)
  exact congrArg (· + v7 (ix2 0 q))
    (Cert.LibPlainDot.matmul_zero_at dot_S256x4096_S4096x1024_S256x1024_1_0_0_1_n_n rfl rfl rfl rfl rfl rfl rfl rfl
      none v3 v4 r q)

end Cert.KernelIdeal.Payload

end
-- ==== Proof.BitLinearArrays.lean ====
/-
  The kernel's two intermediate arrays, as functions of what they are computed from (pure definitions; no program).

  The weight region leaves the TRANSPOSED quantized weights: entry (k, o) of its [4096, 4096] result is the ternary
  value of w(o, k) scaled back. The product region works on the activations flattened to rows R = 2048·b + s of an
  [8192, 4096] matrix X, on those transposed weights Wq and on the bias as a row B : [1, 4096]; entry (R, O) of its
  result is  Σ_k int8(X(R, ·))(X(R, k)) · Wq(k, O) + B(0, O).
-/
import proofs.«106305_j798863917295_2_alg».proof.Proof.BitLinearSpec

noncomputable section

namespace Cert.BitLinear

open Idealize.ShloMosaic Idealize.ShloMosaic.ValueIdx

/-- The transposed quantized weights: `wq w (k, o) = wDeq w o k`. -/
def wq (w : (⟨2, ![4096, 4096]⟩ : Shape).Idx → EReal) : (⟨2, ![4096, 4096]⟩ : Shape).Idx → EReal :=
  fun i => wDeq w ⟨(i 1).val, (i 1).isLt⟩ ⟨(i 0).val, (i 0).isLt⟩

theorem wq_ix2 (w : (⟨2, ![4096, 4096]⟩ : Shape).Idx → EReal) (k o : Fin 4096) : wq w (ix2 k o) = wDeq w o k := rfl

/-- Row `R`, column `O` of the product region's result. -/
def rowOut (X : (⟨2, ![8192, 4096]⟩ : Shape).Idx → EReal) (Wq : (⟨2, ![4096, 4096]⟩ : Shape).Idx → EReal)
    (B : (⟨2, ![1, 4096]⟩ : Shape).Idx → EReal) (R : Fin 8192) (O : Fin 4096) : EReal :=
  (∑ k : Fin 4096, int8 (fun e => X (ix2 R e)) (X (ix2 R k)) * Wq (ix2 k O)) + B (ix2 0 O)

/-- The product region's whole result. -/
def dense (X : (⟨2, ![8192, 4096]⟩ : Shape).Idx → EReal) (Wq : (⟨2, ![4096, 4096]⟩ : Shape).Idx → EReal)
    (B : (⟨2, ![1, 4096]⟩ : Shape).Idx → EReal) : (⟨2, ![8192, 4096]⟩ : Shape).Idx → EReal :=
  fun i => rowOut X Wq B ⟨(i 0).val, (i 0).isLt⟩ ⟨(i 1).val, (i 1).isLt⟩

theorem dense_ix2 (X : (⟨2, ![8192, 4096]⟩ : Shape).Idx → EReal) (Wq : (⟨2, ![4096, 4096]⟩ : Shape).Idx → EReal)
    (B : (⟨2, ![1, 4096]⟩ : Shape).Idx → EReal) (R : Fin 8192) (O : Fin 4096) :
    dense X Wq B (ix2 R O) = rowOut X Wq B R O := rfl

end Cert.BitLinear

end
-- ==== Proof.KI.WeightArray.lean ====
/-
  The weight region's result array after its 16 points, on the extended reals: the transposed quantized weights.

  At point t the region writes back a [4096, 256] block: columns 256·t … 256·t + 255 of the [4096, 4096] result, all
  rows. What it writes is the weight block's value of the 256 weight rows 256·t … it was handed: entry (k, r) of the
  block is the ternary value, scaled back, of the weight at row 256·t + r, column k, against that row's mean absolute
  value. The result array's entry (k, o) is, by definition of the transposed quantized weights, the same value at row o,
  column k; and the block's entry (k, r) sits in the array at (k, 256·t + r). So every point writes back its block of
  that one array.

  The 16 blocks cover the array: the entry (k, o) lies in the block of the point t = o / 256, because
  256·(o / 256) ≤ o < 256·(o / 256) + 256 and every row k is in every block. An array every entry of which is written
  back, each write-back being the block of one function, ends holding that function.
-/
import proofs.«106305_j798863917295_2_alg».proof.Proof.KI.WeightRegion
import proofs.«106305_j798863917295_2_alg».proof.Proof.KI.StoredValues
import proofs.«106305_j798863917295_2_alg».proof.Proof.KI.BlockReads
import proofs.«106305_j798863917295_2_alg».proof.Proof.PayloadsAt
import proofs.«106305_j798863917295_2_alg».proof.Proof.BitLinearArrays
import Idealize.ShloMosaic.Lib.Pipeline.Value

set_option maxRecDepth 16384
noncomputable section
namespace Cert.KernelIdeal.Run
open Cert.KernelIdeal Cert.KernelIdeal.Gen Cert.BitLinear
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What point t writes back is its block of the transposed quantized weights: the block's entry (k, r) is the
    ternary value of the weight at row 256·t + r, column k, and it sits in the array at (k, 256·t + r). -/
theorem wflushed (c : Dev nD) (t : Fin cfg0.N) :
    (wdat (F := Ideal) V c).flushed 1 t = ((cfg0.win 1).blk t).view.read (Elt Ideal) (wq (V c main_arg1)) := by
  show (cfg0.win 1).cut (grid0.coords t) ((wdat V c).after 1 t) = _
  rw [wafter_1, wout_eq]
  funext j
  -- an entry of the block by its two coordinates
  obtain ⟨k, r, rfl⟩ : ∃ (k : Fin 4096) (r : Fin 256), j = (ix2 k r : S4096x256.Idx) :=
    ⟨j 0, j 1, eq_ix2 (n0 := 4096) (n1 := 256) j⟩
  obtain ⟨-, -, h0, h1⟩ := windex t
  have ht : t.val < 16 := lt_of_lt_of_eq t.isLt N_0
  have hr : r.val < 256 := r.isLt
  have ho : 256 * t.val + r.val < 4096 := by omega
  -- row r of the input block is row 256·t + r of the weight matrix
  have e0 : ∀ i : Fin 4096, (wblk V c 0 t : Vec Ideal S256x4096 .f32) (ix2 r i)
      = (V c main_arg1 : S4096x4096.Idx → Elt Ideal .f32) (ix2 (⟨256 * t.val + r.val, ho⟩ : Fin 4096) i) :=
    fun i => wblk_at V c t (ix2 r i) (ix2 (⟨256 * t.val + r.val, ho⟩ : Fin 4096) i) rfl rfl
  -- the output block's entry (k, r) sits in the result at (0·4096 + k, t·256 + r)
  have hemb : ((cfg0.win 1).blk t).view.emb (ix2 k r : S4096x256.Idx)
      = (ix2 k (⟨256 * t.val + r.val, ho⟩ : Fin 4096) : S4096x4096.Idx) := by
    funext a
    apply Fin.ext
    match a with
    | ⟨0, _⟩ => show win0_1.index t 0 * 4096 + 1 * k.val = k.val; rw [h0]; omega
    | ⟨1, _⟩ => show win0_1.index t 1 * 256 + 1 * r.val = 256 * t.val + r.val; rw [h1]; omega
  -- the written block at (k, r): the ternary value of the block's row r at column k
  show k0_pay1 (wblk V c 0 t) (ix2 k r) = _
  refine (Cert.KernelIdeal.Payload.weightBlock_at (wblk V c 0 t) k r).trans ?_
  refine (congrArg₂ ternary (funext e0) (e0 k)).trans ?_
  -- the array's entry there is that same value, by definition
  rw [View.read_apply]
  exact (congrArg (wq (V c main_arg1)) hemb).symm

/-- The result array ends holding the transposed quantized weights: entry (k, o) is written back by the point o / 256. -/
theorem final_wq (c : Dev nD) :
    (wdat (F := Ideal) V c).arrAt 1 cfg0.N = Cert.BitLinear.wq (V c main_arg1) :=
  (wdat (F := Ideal) V c).arrAt_eq_of_cover 1 (wq (V c main_arg1)) (fun t _ => wflushed V c t) fun i => by
    have hi0 : (i 0 : Nat) < 4096 := (i 0).isLt
    have hi1 : (i 1 : Nat) < 4096 := (i 1).isLt
    have hN : cfg0.N = 16 := N_0
    have htN : (i 1 : Nat) / 256 < cfg0.N := by rw [hN]; omega
    obtain ⟨-, -, h0, h1⟩ := windex ⟨(i 1 : Nat) / 256, htN⟩
    refine ⟨⟨(i 1 : Nat) / 256, htN⟩, flush0_1 _, ?_⟩
    show i ∈ ((View.whole main_v0).slice (win0_1.rect ⟨(i 1 : Nat) / 256, htN⟩)).set
    rw [View.set_slice_whole, Rect.mem_set_unit]
    intro a
    match a with
    | ⟨0, _⟩ =>
      -- every row is in the block
      show win0_1.index ⟨(i 1 : Nat) / 256, htN⟩ 0 * 4096 ≤ (i 0 : Nat)
        ∧ (i 0 : Nat) < win0_1.index ⟨(i 1 : Nat) / 256, htN⟩ 0 * 4096 + 4096
      rw [h0]; omega
    | ⟨1, _⟩ =>
      -- column o is among the 256 columns from 256·(o / 256)
      show win0_1.index ⟨(i 1 : Nat) / 256, htN⟩ 1 * 256 ≤ (i 1 : Nat)
        ∧ (i 1 : Nat) < win0_1.index ⟨(i 1 : Nat) / 256, htN⟩ 1 * 256 + 256
      rw [h1]; show (i 1 : Nat) / 256 * 256 ≤ (i 1 : Nat) ∧ (i 1 : Nat) < (i 1 : Nat) / 256 * 256 + 256; omega

end Cert.KernelIdeal.Run

end
-- ==== Proof.KI.DenseArray.lean ====
/-
  The product region's result array on the extended reals: after the region, its [8192, 4096] output array is
  `dense X Wq B` of the three arrays the region reads — entry (R, O) is Σ_k int8(X(R, ·))(X(R, k)) · Wq(k, O) + B(0, O).

  Point t = (i, j) = (t / 4, t % 4) of the grid handles token rows 256·i … and output columns 1024·j …. The scratch
  is what makes the points depend on each other: after ANY position n it holds the int8 values, scaled back, of the
  256 token rows of block n / 4 — by induction on n: a first-column position (n ≡ 0 mod 4) writes exactly that from
  its activation block, and a later one leaves the scratch alone while n / 4 does not change. So at every point the
  product's left operand is the quantized rows 256·i …, whichever branch the point took, and the output block is the
  block (i, j) of `dense`. Every point writes its output block back, the 32 × 4 blocks tile the array, and the
  array therefore ends at `dense` everywhere.
-/
import proofs.«106305_j798863917295_2_alg».proof.Proof.KI.ProductRegion
import proofs.«106305_j798863917295_2_alg».proof.Proof.KI.StoredValues
import proofs.«106305_j798863917295_2_alg».proof.Proof.KI.BlockReads
import proofs.«106305_j798863917295_2_alg».proof.Proof.PayloadsAt
import proofs.«106305_j798863917295_2_alg».proof.Proof.BitLinearArrays
import Idealize.ShloMosaic.Lib.Pipeline.Value

set_option maxRecDepth 16384

noncomputable section

namespace Cert.KernelIdeal.Run

open Cert.KernelIdeal Cert.KernelIdeal.Gen Cert.BitLinear Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt Ideal) ((c : Thread nD τ).loc b))

/-- The quantizer's value of the activation block at point `t`, entry (r, k): the int8 value, scaled back, of
    entry k of token row R = 256 (t / 4) + r. -/
theorem quantRow_at (c : Dev nD) (t : Fin cfg1.N) (r : Fin 256) (k : Fin 4096) (R : Fin 8192) (hR : R.val = 256 * (t.val / 4) + r.val) :
    k1_pay1 (F := Ideal) (mblk V c 0 t) (ix2 r k)
      = int8 (fun e => (V c main_v1 : S8192x4096.Idx → EReal) (ix2 R e)) ((V c main_v1 : S8192x4096.Idx → EReal) (ix2 R k)) := by
  refine (Payload.actBlock_at (mblk V c 0 t) r k).trans ?_
  have hrow : ∀ e : Fin 4096, (mblk V c 0 t : Vec Ideal S256x4096 .f32) (ix2 r e) = (V c main_v1 : S8192x4096.Idx → EReal) (ix2 R e) :=
    fun e => mblk0_at V c t (ix2 r e) (ix2 R e) hR rfl
  exact congrArg₂ int8 (funext hrow) (hrow k)

/-- THE SCRATCH after position `n`: the quantized token rows of block `n / 4`. -/
theorem scratch_at (c : Dev nD) : ∀ (n : ℕ) (hn : n < cfg1.N) (r : Fin 256) (k : Fin 4096) (R : Fin 8192), R.val = 256 * (n / 4) + r.val →
    ((holds (F := Ideal) V c n hn).2 : FVec Ideal S256x4096 .bf16) (ix2 r k)
      = int8 (fun e => (V c main_v1 : S8192x4096.Idx → EReal) (ix2 R e)) ((V c main_v1 : S8192x4096.Idx → EReal) (ix2 R k)) := by
  intro n
  induction n with
  | zero =>
    intro hn r k R hR
    have e := holds_first V c ⟨0, hn⟩ (Nat.zero_mod 4)
    rw [show holds V c 0 hn = holds V c (⟨0, hn⟩ : Fin cfg1.N).val (⟨0, hn⟩ : Fin cfg1.N).isLt from rfl, e]
    dsimp only
    rw [scrFirst_eq]
    exact quantRow_at V c ⟨0, hn⟩ r k R hR
  | succ n ih =>
    intro hn r k R hR
    by_cases h0 : (n + 1) % 4 = 0
    · have e := holds_first V c ⟨n + 1, hn⟩ h0
      rw [show holds V c (n + 1) hn = holds V c (⟨n + 1, hn⟩ : Fin cfg1.N).val (⟨n + 1, hn⟩ : Fin cfg1.N).isLt from rfl, e]
      dsimp only
      rw [scrFirst_eq]
      exact quantRow_at V c ⟨n + 1, hn⟩ r k R hR
    · have e := holds_rest V c ⟨n + 1, hn⟩ h0
      rw [show holds V c (n + 1) hn = holds V c (⟨n + 1, hn⟩ : Fin cfg1.N).val (⟨n + 1, hn⟩ : Fin cfg1.N).isLt from rfl, e]
      dsimp only
      exact ih (Nat.lt_of_succ_lt hn) r k R (by rw [hR]; omega)

/-- THE OUTPUT BLOCK after point `t`, entry (r, q): entry (R, O) of `dense`, R = 256 (t / 4) + r, O = 1024 (t % 4) + q. -/
theorem outBlock_at (c : Dev nD) (t : Fin cfg1.N) (r : Fin 256) (q : Fin 1024) (R : Fin 8192) (O : Fin 4096)
    (hR : R.val = 256 * (t.val / 4) + r.val) (hO : O.val = 1024 * (t.val % 4) + q.val) :
    ((holds (F := Ideal) V c t.val t.isLt).1 : FVec Ideal S256x1024 .f32) (ix2 r q)
      = rowOut (V c main_v1) (V c main_v0) (V c main_v2) R O := by
  have hw : ∀ k : Fin 4096, (mblk V c 1 t : Vec Ideal S4096x1024 .bf16) (ix2 k q) = (V c main_v0 : S4096x4096.Idx → EReal) (ix2 k O) :=
    fun k => mblk1_at V c t (ix2 k q) (ix2 k O) rfl hO
  have hb : (mblk V c 2 t : Vec Ideal S1x1024 .f32) (ix2 0 q) = (V c main_v2 : S1x4096.Idx → EReal) (ix2 0 O) :=
    mblk2_at V c t (ix2 0 q) (ix2 0 O) rfl hO
  unfold rowOut
  by_cases h0 : t.val % 4 = 0
  · rw [holds_first V c t h0]
    dsimp only
    rw [outFirst_eq]
    refine (Payload.dense_at (k1_pay1 (F := Ideal) (mblk V c 0 t)) (mblk V c 1 t) (mblk V c 2 t) r q).trans ?_
    refine congrArg₂ (· + ·) (Finset.sum_congr rfl fun k _ => ?_) hb
    exact congrArg₂ (· * ·) (quantRow_at V c t r k R hR) (hw k)
  · rw [holds_rest V c t h0]
    dsimp only
    rw [outRest_eq]
    refine (Payload.dense_at ((holds (F := Ideal) V c (t.val - 1) (Nat.lt_of_le_of_lt (Nat.sub_le _ _) t.isLt)).2) (mblk V c 1 t) (mblk V c 2 t) r q).trans ?_
    refine congrArg₂ (· + ·) (Finset.sum_congr rfl fun k _ => ?_) hb
    exact congrArg₂ (· * ·) (scratch_at V c (t.val - 1) _ r k R (by rw [hR]; omega)) (hw k)

/-- WHAT POINT `t` WRITES BACK is block `t` of `dense`. -/
theorem dense_flushed (c : Dev nD) (t : Fin cfg1.N) :
    (mdat (F := Ideal) V c).flushed 3 t
      = ((cfg1.win 3).blk t).view.read (Elt Ideal) (dense (V c main_v1) (V c main_v0) (V c main_v2)) := by
  show (cfg1.win 3).cut (grid1.coords t) ((mdat V c).after 3 t) = _
  rw [mafter_3]
  have hN : t.val < 128 := lt_of_lt_of_eq t.isLt (show cfg1.N = 128 from N_1)
  obtain ⟨-, -, -, -, -, -, h0, h1⟩ := mindex t
  funext j
  rw [View.read_apply]
  have hj0 : (j 0).val < 256 := (j 0).isLt
  have hj1 : (j 1).val < 1024 := (j 1).isLt
  have e := outBlock_at V c t ⟨(j 0).val, hj0⟩ ⟨(j 1).val, hj1⟩ ⟨256 * (t.val / 4) + (j 0).val, by omega⟩ ⟨1024 * (t.val % 4) + (j 1).val, by omega⟩ rfl rfl
  refine Eq.trans ?_ (e.trans ?_)
  · exact congrArg _ (funext fun a => by match a with | ⟨0, _⟩ => rfl | ⟨1, _⟩ => rfl)
  · unfold dense
    refine congrArg₂ (rowOut (V c main_v1) (V c main_v0) (V c main_v2)) (Fin.ext ?_) (Fin.ext ?_)
    · show 256 * (t.val / 4) + (j 0).val = win1_3.index t 0 * 256 + 1 * (j 0).val
      rw [h0]; omega
    · show 1024 * (t.val % 4) + (j 1).val = win1_3.index t 1 * 1024 + 1 * (j 1).val
      rw [h1]; omega

/-- An index of the array is in point `t`'s block iff each coordinate is in the block's range on its axis. -/
theorem mem_outBlock (t : Fin cfg1.N) (i : S8192x4096.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole main_v3).slice (win1_3.rect t)).set ↔ _
  rw [View.set_slice_whole, Rect.mem_set_unit]
  exact Iff.rfl

/-- Every entry of the array is in the block of the point (row / 256, column / 1024), which writes it back. -/
theorem dense_cover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have ht : 4 * ((i 0).val / 256) + (i 1).val / 1024 < cfg1.N := by rw [show cfg1.N = 128 from N_1]; omega
  refine ⟨⟨4 * ((i 0).val / 256) + (i 1).val / 1024, ht⟩, flush1_3 _, ?_⟩
  rw [mem_outBlock]
  obtain ⟨-, -, -, -, -, -, h0, h1⟩ := mindex ⟨4 * ((i 0).val / 256) + (i 1).val / 1024, ht⟩
  intro a
  match a with
  | ⟨0, _⟩ =>
    show win1_3.index ⟨4 * ((i 0).val / 256) + (i 1).val / 1024, ht⟩ 0 * 256 ≤ (i 0).val ∧ (i 0).val < win1_3.index ⟨4 * ((i 0).val / 256) + (i 1).val / 1024, ht⟩ 0 * 256 + 256
    rw [h0]; dsimp only; omega
  | ⟨1, _⟩ =>
    show win1_3.index ⟨4 * ((i 0).val / 256) + (i 1).val / 1024, ht⟩ 1 * 1024 ≤ (i 1).val ∧ (i 1).val < win1_3.index ⟨4 * ((i 0).val / 256) + (i 1).val / 1024, ht⟩ 1 * 1024 + 1024
    rw [h1]; dsimp only; omega

/-- THE ARRAY after the region. -/
theorem final_dense (c : Dev nD) :
    (mdat (F := Ideal) V c).arrAt 3 cfg1.N = dense (V c main_v1) (V c main_v0) (V c main_v2) :=
  (mdat (F := Ideal) V c).arrAt_eq_of_cover 3 _ (fun t _ => dense_flushed V c t) dense_cover

end

end Cert.KernelIdeal.Run

end
-- ==== Proof.KI.KernelResult.lean ====
/-
  The kernel's result buffer, read back through the host operations around its two regions.

  Between the regions the program only reshapes: the activations x : [4, 2048, 4096] become the matrix X : [8192, 4096],
  the bias : [4096] becomes the row B : [1, 4096], and the product region's result Y : [8192, 4096] becomes the result
  [4, 2048, 4096]. A reshape keeps row-major order, so token (b, s) is row R = 2048·b + s:

      X(R, k) = x(b, s, k),     B(0, o) = bias(o),     result(b, s, o) = Y(R, o).

  The weight region's output array is the transposed quantized weights wq(w), which the reshapes do not touch, and the
  product region's is  Y(R, o) = Σ_k int8(X(R, ·))(X(R, k)) · wq(w)(k, o) + B(0, o)  (both taken as hypotheses here).
  Substituting the three readings, the row R of X is the token's row of x, so its scale and its quantized entries are the
  token's, wq(w)(k, o) is the de-quantized weight at (o, k), and the sum plus the bias is the specification's value at
  (b, s, o). No hypothesis on the inputs is used.
-/
import proofs.«106305_j798863917295_2_alg».proof.Proof.KI.WholeRun
import proofs.«106305_j798863917295_2_alg».proof.Proof.BitLinearArrays
import Idealize.ShloMosaic.Lib.Pipeline.Value
import Idealize.ShloMosaic.Lib.ValueLayout
import Idealize.ShloMosaic.Lib.StableHlo.Run

noncomputable section
namespace Cert.KernelIdeal.Run
open Cert.KernelIdeal Cert.KernelIdeal.Gen Cert.BitLinear
open Idealize.ShloMosaic Idealize.ShloMosaic.TcCoe Idealize.ShloMosaic.ValueIdx Idealize.SL.Sem
open Idealize.ShloMosaic.Pipeline (Dat)

/-! ## The reshapes read at an index, and the pure step -/

/-- Token (b, s) as a row of the flattened [8192, 4096] activations. -/
def rowOf (b : Fin 4) (s : Fin 2048) : Fin 8192 := ⟨2048 * b.val + s.val, by omega⟩

/-- The activations flattened to rows: row 2048·b + s, column k is the entry (b, s, k). -/
theorem flatten_apply {α : Type} (x : (⟨3, ![4, 2048, 4096]⟩ : Shape).Idx → α)
    (h : (⟨3, ![4, 2048, 4096]⟩ : Shape).ShapeCasts ⟨2, ![8192, 4096]⟩) (b : Fin 4) (s : Fin 2048) (k : Fin 4096) :
    shapeCast ⟨2, ![8192, 4096]⟩ x h (ix2 (rowOf b s) k) = x (ix3 b s k) :=
  shapeCast_apply x h _ _ (by
    rw [Shape.rowMajor_val_three, Shape.rowMajor_val_two]
    show (b.val * 2048 + s.val) * 4096 + k.val = (2048 * b.val + s.val) * 4096 + k.val
    rw [Nat.mul_comm b.val 2048])

/-- The rows folded back into tokens: entry (b, s, o) is row 2048·b + s, column o. -/
theorem unflatten_apply {α : Type} (y : (⟨2, ![8192, 4096]⟩ : Shape).Idx → α)
    (h : (⟨2, ![8192, 4096]⟩ : Shape).ShapeCasts ⟨3, ![4, 2048, 4096]⟩) (b : Fin 4) (s : Fin 2048) (o : Fin 4096) :
    shapeCast ⟨3, ![4, 2048, 4096]⟩ y h (ix3 b s o) = y (ix2 (rowOf b s) o) :=
  shapeCast_apply y h _ _ (by
    rw [Shape.rowMajor_val_three, Shape.rowMajor_val_two]
    show (2048 * b.val + s.val) * 4096 + o.val = (b.val * 2048 + s.val) * 4096 + o.val
    rw [Nat.mul_comm b.val 2048])

/-- The product region's row 2048·b + s at column o is the specification at (b, s, o), once that row of X is token
    (b, s)'s row of x and the bias row at (0, o) is the bias at o. -/
theorem rowOut_eq_outAt (X : (⟨2, ![8192, 4096]⟩ : Shape).Idx → EReal) (B : (⟨2, ![1, 4096]⟩ : Shape).Idx → EReal)
    (x : (⟨3, ![4, 2048, 4096]⟩ : Shape).Idx → EReal) (w : (⟨2, ![4096, 4096]⟩ : Shape).Idx → EReal)
    (bias : (⟨1, ![4096]⟩ : Shape).Idx → EReal) (b : Fin 4) (s : Fin 2048) (o : Fin 4096)
    (hX : ∀ e : Fin 4096, X (ix2 (rowOf b s) e) = x (ix3 b s e)) (hB : B (ix2 (0 : Fin 1) o) = bias (ix1 o)) :
    rowOut X (wq w) B (rowOf b s) o = outAt x w bias b s o := by
  unfold rowOut outAt xDeq
  have hfun : (fun e : Fin 4096 => X (ix2 (rowOf b s) e)) = fun e => x (ix3 b s e) := funext hX
  rw [hfun, hB]
  refine congrArg (· + bias (ix1 o)) (Finset.sum_congr rfl fun k _ => ?_)
  rw [hX k, wq_ix2]

variable (m : (ℓ : Loc nD τ sig) → Buf (Elt Ideal) ℓ) (ρ : Dev nD → PrngReg) (c : Dev nD)

/-! ## The host stretches' results -/

/-- After the first stretch the flattened activations are the reshape of the activations. -/
theorem W2_main_v1 :
    (W2 (F := Ideal) m ρ c (Proc.devRef .tc main_v1) : S8192x4096.Idx → EReal)
      = shapeCast S8192x4096 (W1 (F := Ideal) m ρ c (Proc.devRef .tc main_arg0)) shapeCasts_S4x2048x4096_S8192x4096 := by
  show StableHlo.after hostOps1 _ (Proc.devRef .tc main_v1) = _
  after_results
  rfl

/-- … and the bias row is the reshape of the bias. -/
theorem W2_main_v2 :
    (W2 (F := Ideal) m ρ c (Proc.devRef .tc main_v2) : S1x4096.Idx → EReal)
      = shapeCast S1x4096 (W1 (F := Ideal) m ρ c (Proc.devRef .tc main_arg2)) shapeCasts_S4096_S1x4096 := by
  show StableHlo.after hostOps1 _ (Proc.devRef .tc main_v2) = _
  after_results
  rfl

/-- The first stretch does not write the weight region's output array. -/
theorem W2_main_v0 :
    W2 (F := Ideal) m ρ c (Proc.devRef .tc main_v0) = W1 (F := Ideal) m ρ c (Proc.devRef .tc main_v0) :=
  StableHlo.after_of_forall_not_mem (b := Proc.devRef .tc main_v0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide)))

/-- After the last stretch the result is the reshape of the product region's output array. -/
theorem W4_main_v4 :
    (W4 (F := Ideal) m ρ c (Proc.devRef .tc main_v4) : S4x2048x4096.Idx → EReal)
      = shapeCast S4x2048x4096 (W3 (F := Ideal) m ρ c (Proc.devRef .tc main_v3)) shapeCasts_S8192x4096_S4x2048x4096 := by
  show StableHlo.after hostOps2 _ (Proc.devRef .tc main_v4) = _
  after_results
  rfl

/-! ## The regions' arrays and the buffers they leave alone -/

/-- The weight region leaves the activations as launched. -/
theorem W1_main_arg0 : W1 (F := Ideal) m ρ c (Proc.devRef .tc main_arg0) = m ((c : Thread nD τ).loc main_arg0) :=
  W1_of_ne m ρ c main_arg0 (by decide)

/-- The weight region leaves the bias as launched. -/
theorem W1_main_arg2 : W1 (F := Ideal) m ρ c (Proc.devRef .tc main_arg2) = m ((c : Thread nD τ).loc main_arg2) :=
  W1_of_ne m ρ c main_arg2 (by decide)

/-- The weight region's output array, given what its write-backs leave. -/
theorem W1_main_v0 (hW : (wdat (F := Ideal) (V0 m ρ) c).arrAt 1 cfg0.N = Cert.BitLinear.wq (V0 m ρ c main_arg1)) :
    W1 (F := Ideal) m ρ c (Proc.devRef .tc main_v0) = Cert.BitLinear.wq (m ((c : Thread nD τ).loc main_arg1)) :=
  (W1_arr m ρ c 1).trans hW

/-- The product region's output array, given what its write-backs leave. -/
theorem W3_main_v3
    (hD : (mdat (F := Ideal) (V2 m ρ) c).arrAt 3 cfg1.N = Cert.BitLinear.dense (V2 m ρ c main_v1) (V2 m ρ c main_v0) (V2 m ρ c main_v2)) :
    W3 (F := Ideal) m ρ c (Proc.devRef .tc main_v3)
      = Cert.BitLinear.dense (V2 m ρ c main_v1) (V2 m ρ c main_v0) (V2 m ρ c main_v2) :=
  (W3_arr m ρ c 3).trans hD

/-! ## The result -/

/-- The kernel's result buffer holds the specification's array, given what the two regions leave in their output
    arrays. -/
theorem result_of
    (hW : (wdat (F := Ideal) (V0 m ρ) c).arrAt 1 cfg0.N = Cert.BitLinear.wq (V0 m ρ c main_arg1))
    (hD : (mdat (F := Ideal) (V2 m ρ) c).arrAt 3 cfg1.N = Cert.BitLinear.dense (V2 m ρ c main_v1) (V2 m ρ c main_v0) (V2 m ρ c main_v2)) :
    W4 (F := Ideal) m ρ c (Proc.devRef .tc main_v4)
      = Cert.BitLinear.out (m ((c : Thread nD τ).loc main_arg0)) (m ((c : Thread nD τ).loc main_arg1)) (m ((c : Thread nD τ).loc main_arg2)) := by
  funext j
  obtain ⟨b, s, o, rfl⟩ : ∃ (b : Fin 4) (s : Fin 2048) (o : Fin 4096), j = ix3 b s o := ⟨j 0, j 1, j 2, eq_ix3 j⟩
  rw [out_ix3]
  have hX : ∀ e : Fin 4096, (V2 (F := Ideal) m ρ c main_v1 : S8192x4096.Idx → EReal) (ix2 (rowOf b s) e)
      = (m ((c : Thread nD τ).loc main_arg0) : S4x2048x4096.Idx → EReal) (ix3 b s e) := fun e =>
    (congrFun (W2_main_v1 m ρ c) _).trans ((flatten_apply _ _ b s e).trans (congrFun (W1_main_arg0 m ρ c) _))
  have hB : (V2 (F := Ideal) m ρ c main_v2 : S1x4096.Idx → EReal) (ix2 (0 : Fin 1) o)
      = (m ((c : Thread nD τ).loc main_arg2) : S4096.Idx → EReal) (ix1 o) :=
    (congrFun (W2_main_v2 m ρ c) _).trans ((shapeCast_a_1a_apply _ _ 0 o).trans (congrFun (W1_main_arg2 m ρ c) _))
  have hQ : (V2 (F := Ideal) m ρ c main_v0 : S4096x4096.Idx → EReal) = Cert.BitLinear.wq (m ((c : Thread nD τ).loc main_arg1)) :=
    (W2_main_v0 m ρ c).trans (W1_main_v0 m ρ c hW)
  calc (W4 (F := Ideal) m ρ c (Proc.devRef .tc main_v4) : S4x2048x4096.Idx → EReal) (ix3 b s o)
      _ = (W3 (F := Ideal) m ρ c (Proc.devRef .tc main_v3) : S8192x4096.Idx → EReal) (ix2 (rowOf b s) o) :=
        (congrFun (W4_main_v4 m ρ c) _).trans (unflatten_apply _ _ b s o)
      _ = rowOut (V2 (F := Ideal) m ρ c main_v1) (V2 (F := Ideal) m ρ c main_v0) (V2 (F := Ideal) m ρ c main_v2) (rowOf b s) o :=
        (congrFun (W3_main_v3 m ρ c hD) _).trans (dense_ix2 _ _ _ _ _)
      _ = rowOut (V2 (F := Ideal) m ρ c main_v1) (Cert.BitLinear.wq (m ((c : Thread nD τ).loc main_arg1))) (V2 (F := Ideal) m ρ c main_v2) (rowOf b s) o := by
        rw [hQ]
      _ = outAt (m ((c : Thread nD τ).loc main_arg0)) (m ((c : Thread nD τ).loc main_arg1)) (m ((c : Thread nD τ).loc main_arg2)) b s o :=
        rowOut_eq_outAt _ _ _ _ _ b s o hX hB

end Cert.KernelIdeal.Run

end
-- ==== Proof.RefIsSpec.lean ====
/-
  The reference program computes the BitLinear specification, on the extended reals.

  The generated reading of the reference gives each of its operations at an index from its operands at an index.
  Followed from the result backwards, at token (b, s) and output feature o, they say:

    * the result is the dense product plus the bias:  Σ_k A(b, s, k) · W(o, k) + bias(o);
    * W(o, k) = min(1, max(-1, round_half_even(w(o, k) / m(o)))) · m(o), where the row scale m(o) is the larger of the
      floor 1e-5 and (0 + Σ_i |w(o, i)|) / 4096 — the row sum starts from the zero word, whose value is 0;
    * A(b, s, k) = min(127, max(-127, round_half_even(x(b, s, k) / a(b, s)))) · a(b, s), where the token scale a(b, s) is
      the larger of the floor and (max_i |x(b, s, i)|) / 127, the maximum taken from -inf.

  The one operation the generated reading leaves unread is that maximum, a reduction of |x| over its last axis with
  a `max` body: `max` commutes and associates, so the reduction at (b, s) is the fold of `max` from the initial value
  over the 4096 coordinates of the reduced axis, the source read at (b, s, i).

  Every scalar step is then literally the specification's (`absE`, `meanScale`, `maxScale`, `requant`): the two sides
  are the same operations on the same operands, so no hypothesis on the inputs is needed. The only literal that is
  evaluated is the zero word; every other word stands unevaluated on both sides.
-/
import proofs.«106305_j798863917295_2_alg».proof.Proof.Gen.ReferenceIdeal.Read
import proofs.«106305_j798863917295_2_alg».proof.Proof.BitLinearSpec

noncomputable section

namespace Cert.ReferenceIdeal.RefValue

open Cert.ReferenceIdeal Cert.ReferenceIdeal.Gen Cert.ReferenceIdeal.Read Idealize.ShloMosaic Idealize.ShloMosaic.ValueIdx
  Idealize.ShloMosaic.StableHlo Cert.BitLinear

/-! ## The operand indices of the layout operations, in coordinates -/

/-- The row scale broadcast along a row is read in column 0 of the [4096, 1] array (for the final product). -/
theorem idx_v22_ix (o k : Fin 4096) : idx_main_v22 (ix2 o k) = ix2 o (0 : Fin 1) :=
  funext fun a => by match a with | ⟨0, _⟩ => rfl | ⟨1, _⟩ => rfl

/-- The same broadcast, as the divisor. -/
theorem idx_v6_ix (o k : Fin 4096) : idx_main_v6 (ix2 o k) = ix2 o (0 : Fin 1) :=
  funext fun a => by match a with | ⟨0, _⟩ => rfl | ⟨1, _⟩ => rfl

/-- The [4096, 1] column of row sums at (o, ·) is the [4096] vector at o. -/
theorem idx_v2_ix (o : Fin 4096) (u : Fin 1) : idx_main_v2 (ix2 o u) = ix1 o :=
  funext fun a => by match a with | ⟨0, _⟩ => rfl

/-- The k-th summand of row o's sum is the source at (o, k). -/
theorem idx_v1_ix (o k : Fin 4096) : idx_main_v1 (ix1 o) k = ix2 o k :=
  funext fun a => by match a with | ⟨0, _⟩ => rfl | ⟨1, _⟩ => rfl

/-- The token scale broadcast along the features is read at feature 0 of the [4, 2048, 1] array (for the product). -/
theorem idx_v20_ix (b : Fin 4) (s : Fin 2048) (k : Fin 4096) : idx_main_v20 (ix3 b s k) = ix3 b s (0 : Fin 1) :=
  funext fun a => by match a with | ⟨0, _⟩ => rfl | ⟨1, _⟩ => rfl | ⟨2, _⟩ => rfl

/-- The same broadcast, as the divisor. -/
theorem idx_v16_ix (b : Fin 4) (s : Fin 2048) (k : Fin 4096) : idx_main_v16 (ix3 b s k) = ix3 b s (0 : Fin 1) :=
  funext fun a => by match a with | ⟨0, _⟩ => rfl | ⟨1, _⟩ => rfl | ⟨2, _⟩ => rfl

/-- The [4, 2048, 1] array of row maxima at (b, s, ·) is the [4, 2048] array at (b, s). -/
theorem idx_v12_ix (b : Fin 4) (s : Fin 2048) (u : Fin 1) : idx_main_v12 (ix3 b s u) = ix2 b s :=
  funext fun a => by match a with | ⟨0, _⟩ => rfl | ⟨1, _⟩ => rfl

/-- The product's k-th left factor at (b, s, o) is the activation at (b, s, k). -/
theorem lidx_v24_ix (b : Fin 4) (s : Fin 2048) (o k : Fin 4096) : lidx_main_v24 (ix3 b s o) k = ix3 b s k :=
  funext fun a => by match a with | ⟨0, _⟩ => rfl | ⟨1, _⟩ => rfl | ⟨2, _⟩ => rfl

/-- The product's k-th right factor at (b, s, o) is the weight at (o, k). -/
theorem ridx_v24_ix (b : Fin 4) (s : Fin 2048) (o k : Fin 4096) : ridx_main_v24 (ix3 b s o) k = ix2 o k :=
  funext fun a => by match a with | ⟨0, _⟩ => rfl | ⟨1, _⟩ => rfl

/-- The bias, broadcast to [1, 1, 4096] and then over the tokens, is read at o. -/
theorem idx_v26_v25_ix (b : Fin 4) (s : Fin 2048) (o : Fin 4096) : idx_main_v25 (idx_main_v26 (ix3 b s o)) = ix1 o :=
  funext fun a => by match a with | ⟨0, _⟩ => rfl

/-! ## The weight side -/

/-- Row o's scale: the floor against the mean of the row's absolute values. The sum starts from the zero word, 0. -/
theorem v5_ix (x1 : (⟨S4096x4096, .f32⟩ : BufTy).Contents (Elt Ideal)) (o : Fin 4096) (u : Fin 1) :
    val_main_v5 (F := Ideal) x1 (ix2 o u) = meanScale (fun i => x1 (ix2 o i)) := by
  simp only [val_main_v5_apply, val_main_call0_v1_apply, val_main_call0_v0_apply, val_main_cst_1_apply,
    val_main_v4_apply, val_main_v2_apply, val_main_v3_apply, val_main_cst_0_apply, idx_v2_ix, val_main_v1_apply,
    val_main_cst_apply, idx_v1_ix, val_main_v0_apply]
  simp only [Ideal.maximumf_def, Ideal.hostDivf_def, Ideal.ofBits_def, Ideal.hostAbsf_def, Ideal.absf_def,
    Ideal.ofBits_zero_f32, zero_add]
  rfl

/-- The ternary weight scaled back, at (o, k). -/
theorem v23_ix (x1 : (⟨S4096x4096, .f32⟩ : BufTy).Contents (Elt Ideal)) (o k : Fin 4096) :
    val_main_v23 (F := Ideal) x1 (ix2 o k) = wDeq x1 o k := by
  simp only [val_main_v23_apply, val_main_v22_apply, idx_v22_ix, v5_ix, val_main_v9_apply, val_main_call2_v4_apply,
    val_main_call2_v3_apply, val_main_cst_3_apply, val_main_call2_v2_apply, val_main_call2_v1_apply,
    val_main_call2_v0_apply, val_main_cst_2_apply, val_main_v8_apply, val_main_v7_apply, val_main_v6_apply, idx_v6_ix]
  simp only [Ideal.mulf_def, Ideal.minimumf_def, Ideal.maximumf_def, Ideal.hostDivf_def, Ideal.ofBits_def,
    Ideal.hostUnary_roundeven_def]
  rfl

/-! ## The activation side -/

/-- The shape fact that names the inserted coordinate: [4, 2048, 4096] less its last axis is [4, 2048]. -/
theorem redX : S4x2048x4096.Reduces [2] S4x2048 := by decide

/-- The reduced index (b, s) with the coordinate k put back on the last axis is (b, s, k). -/
theorem lift_ix (b : Fin 4) (s : Fin 2048) (k : Fin (S4x2048x4096.size 2)) :
    redX.lift (ix2 b s) k = ix3 b s (⟨k.val, k.isLt⟩ : Fin 4096) :=
  funext fun a => Fin.ext (by match a with | ⟨0, _⟩ => rfl | ⟨1, _⟩ => rfl | ⟨2, _⟩ => rfl)

/-- A reduction over the last axis with a `max` body, from the -inf word: at (b, s) the fold of `max` from that value
    over the 4096 entries of the row, in any order (`max` commutes and associates). -/
theorem hostMax_row (x : FVec Ideal S4x2048x4096 .f32) (b : Fin 4) (s : Fin 2048) :
    Host.reduce FloatOps.maximumf x (constant S_ .f32 0xFF800000#32) reducesTo_S4x2048x4096_S4x2048_d2 h_S_ (ix2 b s)
      = (Finset.univ : Finset (Fin 4096)).fold max (Ideal.ofBits .f32 0xFF800000#32) (fun k => x (ix3 b s k)) := by
  rw [Host.reduce_eq_fold_single FloatOps.maximumf x _ reducesTo_S4x2048x4096_S4x2048_d2 redX h_S_]
  have hf : (x ∘ redX.lift (ix2 b s)) = fun k : Fin 4096 => x (ix3 b s k) := funext fun k => congrArg x (lift_ix b s k)
  exact congrArg (fun f => Finset.fold max (Ideal.ofBits .f32 0xFF800000#32) f (Finset.univ : Finset (Fin 4096))) hf

/-- The reference's row maximum of |x| at (b, s). -/
theorem v11_ix (x0 : (⟨S4x2048x4096, .f32⟩ : BufTy).Contents (Elt Ideal)) (b : Fin 4) (s : Fin 2048) :
    val_main_v11 (F := Ideal) x0 (ix2 b s)
      = (Finset.univ : Finset (Fin 4096)).fold max (Ideal.ofBits .f32 0xFF800000#32) (fun i => absE (x0 (ix3 b s i))) := by
  unfold val_main_v11 val_main_cst_4
  refine (hostMax_row (val_main_v10 (F := Ideal) x0) b s).trans ?_
  simp only [val_main_v10_apply, Ideal.hostAbsf_def, Ideal.absf_def]
  rfl

/-- Token (b, s)'s scale: the floor against the row maximum over 127. -/
theorem v15_ix (x0 : (⟨S4x2048x4096, .f32⟩ : BufTy).Contents (Elt Ideal)) (b : Fin 4) (s : Fin 2048) (u : Fin 1) :
    val_main_v15 (F := Ideal) x0 (ix3 b s u) = maxScale (fun i => x0 (ix3 b s i)) := by
  simp only [val_main_v15_apply, val_main_call3_v1_apply, val_main_call3_v0_apply, val_main_cst_6_apply,
    val_main_v14_apply, val_main_v12_apply, val_main_v13_apply, val_main_cst_5_apply, idx_v12_ix, v11_ix]
  simp only [Ideal.maximumf_def, Ideal.hostDivf_def, Ideal.ofBits_def]
  rfl

/-- The int8 activation scaled back, at (b, s, k). -/
theorem v21_ix (x0 : (⟨S4x2048x4096, .f32⟩ : BufTy).Contents (Elt Ideal)) (b : Fin 4) (s : Fin 2048) (k : Fin 4096) :
    val_main_v21 (F := Ideal) x0 (ix3 b s k) = xDeq x0 b s k := by
  simp only [val_main_v21_apply, val_main_v20_apply, idx_v20_ix, v15_ix, val_main_v19_apply, val_main_call5_v4_apply,
    val_main_call5_v3_apply, val_main_cst_8_apply, val_main_call5_v2_apply, val_main_call5_v1_apply,
    val_main_call5_v0_apply, val_main_cst_7_apply, val_main_v18_apply, val_main_v17_apply, val_main_v16_apply, idx_v16_ix]
  simp only [Ideal.mulf_def, Ideal.minimumf_def, Ideal.maximumf_def, Ideal.hostDivf_def, Ideal.ofBits_def,
    Ideal.hostUnary_roundeven_def]
  rfl

/-! ## The product and the bias -/

/-- The reference's result is the specification's array: at (b, s, o) the sum over the 4096 input features of the
    de-quantized activation times the de-quantized weight, plus the bias at o. -/
theorem result_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) :
    Cert.ReferenceIdeal.Read.val_main_v27 (F := Ideal) x0 x1 x2 = Cert.BitLinear.out x0 x1 x2 := by
  funext j
  obtain ⟨b, s, o, rfl⟩ : ∃ (b : Fin 4) (s : Fin 2048) (o : Fin 4096), j = ix3 b s o := ⟨j 0, j 1, j 2, eq_ix3 j⟩
  rw [out_ix3]
  simp only [val_main_v27_apply, val_main_v24_apply, lidx_v24_ix, ridx_v24_ix, v21_ix, v23_ix, val_main_v26_apply,
    val_main_v25_apply, idx_v26_v25_ix]
  rfl

end Cert.ReferenceIdeal.RefValue

end
-- ==== Proof.lean ====
/-
  The certificate of the BitLinear kernel against its jnp reference: the five claims of `Cert.Claim`.

  THE PROGRAMS. The kernel is two pallas_calls around host reshapes. The first quantizes the weight matrix row by row
  to the ternary values {-1, 0, 1} against the row's mean absolute value, scales the values back and writes them
  TRANSPOSED; the second, on a 32 × 4 grid, quantizes each block of 256 token rows to int8 against the token's largest
  absolute value over 127 (once per block of rows, into a scratch buffer it keeps for the four column blocks), and
  multiplies the scaled-back activations by the quantized weights, adding the bias. The reference does the same with
  whole-array jnp operations and one `einsum`.

  WHY THEY AGREE on the extended reals. Operation by operation the two programs apply the same exact functions to the
  same entries: the same division, the same round-half-to-even, the same clamps against the same f32 words, a row sum
  from zero against a row sum from zero, a row maximum from -inf against a row maximum from -inf, and a product summed
  over the same 4096 input features in the same order. A change of float format is the identity there, the kernel's
  tiling and its transposed weight layout only rename indices, and no algebraic law is needed beyond reading each
  array at an index — so the precondition (finite inputs) is never opened. Both sides are shown equal to ONE function
  of the three arguments, `Cert.BitLinear.out` (Proof/BitLinearSpec.lean).

  THE FRAMES. The reference is a host program: its frame is its run with the result dropped. Each kernel program's run
  is assembled from its two regions as segments between host stretches (Proof/KI/WholeRun.lean, and the same text
  read at the word-level program, Proof/K/WholeRun.lean): every weakly fair execution terminates without a fault and
  every unscoped buffer ends at the fold of what the regions' write-backs and the host operations leave; no region
  and no host operation writes an argument. The ideal pass rewrote nothing, so `preserves` is `True`.
-/
import proofs.«106305_j798863917295_2_alg».proof.Defs
import proofs.«106305_j798863917295_2_alg».proof.Proof.Gen.Kernel
import proofs.«106305_j798863917295_2_alg».proof.Proof.Gen.KernelIdeal
import proofs.«106305_j798863917295_2_alg».proof.Proof.Gen.ReferenceIdeal
import proofs.«106305_j798863917295_2_alg».proof.Proof.Gen.Pre_finite_inputs
import proofs.«106305_j798863917295_2_alg».proof.Proof.Gen.ReferenceIdeal.Read
import proofs.«106305_j798863917295_2_alg».proof.Proof.K.WholeRun
import proofs.«106305_j798863917295_2_alg».proof.Proof.KI.WholeRun
import proofs.«106305_j798863917295_2_alg».proof.Proof.KI.WeightArray
import proofs.«106305_j798863917295_2_alg».proof.Proof.KI.DenseArray
import proofs.«106305_j798863917295_2_alg».proof.Proof.KI.KernelResult
import proofs.«106305_j798863917295_2_alg».proof.Proof.RefIsSpec

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Run.frame (F := Bits) m ρ

/-- So does its idealization. -/
theorem frame_kernelIdeal : Cert.frame_KernelIdeal := fun m ρ _ => Cert.KernelIdeal.Run.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals the kernel's result buffer ends at `out` of the arguments (its run read at the result
    buffer, through the two regions' final arrays), and so does the reference's (its run, read operation by
    operation); the memories agree on the arguments. -/
theorem algebraic : Cert.algebraic_KernelIdeal_ReferenceIdeal := by
  intro m ρ m' ρ' _ hagree
  refine ⟨fun c => Cert.BitLinear.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ?_) (Cert.KernelIdeal.Run.run_all (F := Ideal) m ρ)
    exact ⟨(h c _ (Cert.KernelIdeal.Run.mem_uc Cert.KernelIdeal.main_v4 (by decide))).trans
        (Cert.KernelIdeal.Run.result_of m ρ c (Cert.KernelIdeal.Run.final_wq _ c) (Cert.KernelIdeal.Run.final_dense _ c)),
      (h c _ (Cert.KernelIdeal.Run.mem_uc Cert.KernelIdeal.main_arg0 (by decide))).trans (Cert.KernelIdeal.Run.W4_main_arg0 m ρ c),
      (h c _ (Cert.KernelIdeal.Run.mem_uc Cert.KernelIdeal.main_arg1 (by decide))).trans (Cert.KernelIdeal.Run.W4_main_arg1 m ρ c),
      (h c _ (Cert.KernelIdeal.Run.mem_uc Cert.KernelIdeal.main_arg2 (by decide))).trans (Cert.KernelIdeal.Run.W4_main_arg2 m ρ c)⟩
  · refine (θ_run Cert.ReferenceIdeal.defs _ _).mono (fun _ h c => ⟨?_, (h c).2⟩) (Cert.ReferenceIdeal.Value.run (F := Ideal) m' ρ')
    rw [(h c).1, Cert.ReferenceIdeal.Read.val_main_v27_eq, Cert.ReferenceIdeal.RefValue.result_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
